-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_arg7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg7) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S64x512 : Shape := ⟨2, ![64, 512]⟩
abbrev S64 : Shape := ⟨1, ![64]⟩
abbrev S1024 : Shape := ⟨1, ![1024]⟩
abbrev S64x64x4 : Shape := ⟨3, ![64, 64, 4]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S1024 : S_.BroadcastsInDim S1024 (![] : Fin 0 → Fin S1024.rank)
  reducesTo_S1024_S_d0 : S1024.ReducesTo [0] S_
  bcast_S_S64x64x4 : S_.BroadcastsInDim S64x64x4 (![] : Fin 0 → Fin S64x64x4.rank)
  reducesTo_S64x64x4_S_d0_1_2 : S64x64x4.ReducesTo [0, 1, 2] S_

variable [Facts]

def fn_part2 {F : FTy → Type} [FloatOps F] (main_arg7 : FVec F S64x64x4 .f32) (main_v33 : IVec S_ 1) : IVec S_ 1 :=
  let main_v34 : FVec F S64x64x4 .f32 := Host.absf main_arg7
  let main_cst_12 : FVec F S_ .f32 := constant S_ .f32 0x7F800000#32
  let main_v35 : FVec F S64x64x4 .f32 := broadcastInDim S64x64x4 ![] bcast_S_S64x64x4 main_cst_12
  let main_v36 : IVec S64x64x4 1 := cmpf .olt main_v34 main_v35
  let main_c_13 : IVec S_ 1 := constantI S_ 1 1#1
  let main_v37 : IVec S_ 1 := (fun x v => Host.reduce IntOp.andi x v reducesTo_S64x64x4_S_d0_1_2 h_S_) main_v36 main_c_13
  let main_v38 : IVec S_ 1 := andi main_v33 main_v37
  main_v38

def fn_part1 {F : FTy → Type} [FloatOps F] (main_arg4 : FVec F S1024 .f32) (main_arg5 : FVec F S1024x512 .f32) (main_arg6 : FVec F S1024 .f32) (main_arg7 : FVec F S64x64x4 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S1024x512 .f32) (main_arg1 : FVec F S64x512 .f32) (main_arg2 : FVec F S64 .f32) (main_arg3 : FVec F S1024x512 .f32) (main_arg4 : FVec F S1024 .f32) (main_arg5 : FVec F S1024x512 .f32) (main_arg6 : FVec F S1024 .f32) (main_arg7 : FVec F S64x64x4 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_v13 main_v16
-- ==== Kernel.lean ====
abbrev S1024x512 : Shape := ⟨2, ![1024, 512]⟩
abbrev S64x512 : Shape := ⟨2, ![64, 512]⟩
abbrev S64 : Shape := ⟨1, ![64]⟩
abbrev S1024 : Shape := ⟨1, ![1024]⟩
abbrev S64x64x4 : Shape := ⟨3, ![64, 64, 4]⟩
abbrev S1x64 : Shape := ⟨2, ![1, 64]⟩
abbrev S1x1024 : Shape := ⟨2, ![1, 1024]⟩
abbrev S1024x1x64x64 : Shape := ⟨4, ![1024, 1, 64, 64]⟩
abbrev S1024x64x4x4 : Shape := ⟨4, ![1024, 64, 4, 4]⟩
abbrev S128x512 : Shape := ⟨2, ![128, 512]⟩
abbrev S128x1x64x64 : Shape := ⟨4, ![128, 1, 64, 64]⟩
abbrev S128x64x4x4 : Shape := ⟨4, ![128, 64, 4, 4]⟩
abbrev S512x64 : Shape := ⟨2, ![512, 64]⟩
abbrev S128x64 : Shape := ⟨2, ![128, 64]⟩
abbrev S64x64 : Shape := ⟨2, ![64, 64]⟩
abbrev S128x64x1 : Shape := ⟨3, ![128, 64, 1]⟩
abbrev S1x64x64 : Shape := ⟨3, ![1, 64, 64]⟩
abbrev S128x64x64 : Shape := ⟨3, ![128, 64, 64]⟩
abbrev S512x1024 : Shape := ⟨2, ![512, 1024]⟩
abbrev S128x1024 : Shape := ⟨2, ![128, 1024]⟩
abbrev S128x64x64x4 : Shape := ⟨4, ![128, 64, 64, 4]⟩
abbrev S64x64x1 : Shape := ⟨3, ![64, 64, 1]⟩
abbrev S128x1x64 : Shape := ⟨3, ![128, 1, 64]⟩
abbrev S128x64x1x4 : Shape := ⟨4, ![128, 64, 1, 4]⟩
abbrev S128x64x4 : Shape := ⟨3, ![128, 64, 4]⟩
abbrev S128x64x64x1 : Shape := ⟨4, ![128, 64, 64, 1]⟩
abbrev S128x64x1x1 : Shape := ⟨4, ![128, 64, 1, 1]⟩

abbrev nBuf : Space → Nat
  | .hbm => 15
  | .vmem => 17
  | .smem => 0
  | _ => 0

abbrev bufTy : (tb : Table) → Fin (tcTables nBuf tb) → BufTy
  | .hbm, ⟨0, _⟩ => ⟨S1024x512, .f32⟩
  | .hbm, ⟨1, _⟩ => ⟨S64x512, .f32⟩
  | .hbm, ⟨2, _⟩ => ⟨S64, .f32⟩
  | .hbm, ⟨3, _⟩ => ⟨S1024x512, .f32⟩
  | .hbm, ⟨4, _⟩ => ⟨S1024, .f32⟩
  | .hbm, ⟨5, _⟩ => ⟨S1024x512, .f32⟩
  | .hbm, ⟨6, _⟩ => ⟨S1024, .f32⟩
  | .hbm, ⟨7, _⟩ => ⟨S64x64x4, .f32⟩
  | .hbm, ⟨8, _⟩ => ⟨S1x64, .f32⟩
  | .hbm, ⟨9, _⟩ => ⟨S1x1024, .f32⟩
  | .hbm, ⟨10, _⟩ => ⟨S1x1024, .f32⟩
  | .hbm, ⟨11, _⟩ => ⟨S1024x1x64x64, .f32⟩
  | .hbm, ⟨12, _⟩ => ⟨S1024x1x64x64, .f32⟩
  | .hbm, ⟨13, _⟩ => ⟨S1024x64x4x4, .f32⟩
  | .hbm, ⟨14, _⟩ => ⟨S1024x64x4x4, .f32⟩
  | .local _ .vmem, ⟨0, _⟩ => ⟨S128x512, .f32⟩
  | .local _ .vmem, ⟨1, _⟩ => ⟨S128x512, .f32⟩
  | .local _ .vmem, ⟨2, _⟩ => ⟨S64x512, .f32⟩
  | .local _ .vmem, ⟨3, _⟩ => ⟨S1x64, .f32⟩
  | .local _ .vmem, ⟨4, _⟩ => ⟨S1024x512, .f32⟩
  | .local _ .vmem, ⟨5, _⟩ => ⟨S1x1024, .f32⟩
  | .local _ .vmem, ⟨6, _⟩ => ⟨S1024x512, .f32⟩
  | .local _ .vmem, ⟨7, _⟩ => ⟨S1x1024, .f32⟩
  | .local _ .vmem, ⟨8, _⟩ => ⟨S64x64x4, .f32⟩
  | .local _ .vmem, ⟨9, _⟩ => ⟨S128x1x64x64, .f32⟩
  | .local _ .vmem, ⟨10, _⟩ => ⟨S128x1x64x64, .f32⟩
  | .local _ .vmem, ⟨11, _⟩ => ⟨S128x1x64x64, .f32⟩
  | .local _ .vmem, ⟨12, _⟩ => ⟨S128x1x64x64, .f32⟩
  | .local _ .vmem, ⟨13, _⟩ => ⟨S128x64x4x4, .f32⟩
  | .local _ .vmem, ⟨14, _⟩ => ⟨S128x64x4x4, .f32⟩
  | .local _ .vmem, ⟨15, _⟩ => ⟨S128x64x4x4, .f32⟩
  | .local _ .vmem, ⟨16, _⟩ => ⟨S128x64x4x4, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x64x4x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x64x4x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S64_S1x64 : S64.ShapeCasts S1x64
  shapeCasts_S1024_S1x1024 : S1024.ShapeCasts S1x1024
  inb_S128x512_S128x512_0_0 : ∀ a, (![0, 0] : Fin 2 → Nat) a + S128x512.size a ≤ S128x512.size a
  h_S128x512 : 0 < S128x512.numel
  inb_S64x512_S64x512_0_0 : ∀ a, (![0, 0] : Fin 2 → Nat) a + S64x512.size a ≤ S64x512.size a
  h_S64x512 : 0 < S64x512.numel
  transposes_S64x512_p1_0_S512x64 : S64x512.Transposes [1, 0] S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  iota_S64x64_d0_w32 : S64x64.Iotas .tc 32 [0]
  iota_S64x64_d1_w32 : S64x64.Iotas .tc 32 [1]
  natLt_1_32 : 1 < 32
  shapeCasts_S128x64_S128x64x1 : S128x64.ShapeCasts S128x64x1
  shapeCasts_S64x64_S1x64x64 : S64x64.ShapeCasts S1x64x64
  broadcasts_S128x64x1_S128x64x64 : S128x64x1.Broadcasts S128x64x64
  broadcasts_S1x64x64_S128x64x64 : S1x64x64.Broadcasts S128x64x64
  shapeCasts_S128x64x64_S128x1x64x64 : S128x64x64.ShapeCasts S128x1x64x64
  inb_S128x1x64x64_S128x1x64x64_0_0_0_0 : ∀ a, (![0, 0, 0, 0] : Fin 4 → Nat) a + S128x1x64x64.size a ≤ S128x1x64x64.size a
  h_S128x1x64x64 : 0 < S128x1x64x64.numel
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  shapeCasts_S128x1024_S128x64x4x4 : S128x1024.ShapeCasts S128x64x4x4
  inb_S64x64x4_S64x64x4_0_0_0 : ∀ a, (![0, 0, 0] : Fin 3 → Nat) a + S64x64x4.size a ≤ S64x64x4.size a
  h_S64x64x4 : 0 < S64x64x4.numel
  slices_S64x64x4_o0_0_0_S64x64x1 : S64x64x4.Slices ![0, 0, 0] S64x64x1
  shapeCasts_S64x64x1_S64x64 : S64x64x1.ShapeCasts S64x64
  shapeCasts_S128x64_S128x1x64 : S128x64.ShapeCasts S128x1x64
  broadcasts_S128x1x64_S128x64x64 : S128x1x64.Broadcasts S128x64x64
  slices_S128x64x4x4_o0_0_0_0_S128x64x1x4 : S128x64x4x4.Slices ![0, 0, 0, 0] S128x64x1x4
  shapeCasts_S128x64x1x4_S128x64x4 : S128x64x1x4.ShapeCasts S128x64x4
  shapeCasts_S128x64x64_S128x64x64x1 : S128x64x64.ShapeCasts S128x64x64x1
  shapeCasts_S128x64x4_S128x64x1x4 : S128x64x4.ShapeCasts S128x64x1x4
  broadcasts_S128x64x64x1_S128x64x64x4 : S128x64x64x1.Broadcasts S128x64x64x4
  broadcasts_S128x64x1x4_S128x64x64x4 : S128x64x1x4.Broadcasts S128x64x64x4
  slices_S64x64x4_o0_0_1_S64x64x1 : S64x64x4.Slices ![0, 0, 1] S64x64x1
  slices_S128x64x4x4_o0_0_1_0_S128x64x1x4 : S128x64x4x4.Slices ![0, 0, 1, 0] S128x64x1x4
  slices_S64x64x4_o0_0_2_S64x64x1 : S64x64x4.Slices ![0, 0, 2] S64x64x1
  slices_S128x64x4x4_o0_0_2_0_S128x64x1x4 : S128x64x4x4.Slices ![0, 0, 2, 0] S128x64x1x4
  slices_S64x64x4_o0_0_3_S64x64x1 : S64x64x4.Slices ![0, 0, 3] S64x64x1
  slices_S128x64x4x4_o0_0_3_0_S128x64x1x4 : S128x64x4x4.Slices ![0, 0, 3, 0] S128x64x1x4
  reduces_S128x64x64x4_S128x64 : S128x64x64x4.Reduces [2, 3] S128x64
  shapeCasts_S128x64_S128x64x1x1 : S128x64.ShapeCasts S128x64x1x1
  broadcasts_S128x64x1x1_S128x64x4x4 : S128x64x1x1.Broadcasts S128x64x4x4
  inb_S128x64x4x4_S128x64x4x4_0_0_0_0 : ∀ a, (![0, 0, 0, 0] : Fin 4 → Nat) a + S128x64x4x4.size a ≤ S128x64x4x4.size a
  h_S128x64x4x4 : 0 < S128x64x4x4.numel
  dot_S128x512_S512x64_S128x64_1_0_0_1_n_n_wf : DotDims.WF S128x512 S512x64 S128x64 [1] [0] [0] [1] [] []
  dot_S128x512_S512x1024_S128x1024_1_0_0_1_n_n_wf : DotDims.WF S128x512 S512x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1024x512.size a
  hwx0_0 : ∀ i : grid0.Coords, EltTy.bits .f32 = 32 ∨ (Rect.block (s := S1024x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .f32 = 32 ∨ (Rect.block (s := S1024x512) S1024x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64x4.size a ≤ S64x64x4.size a
  hwx0_7 : ∀ i : grid0.Coords, EltTy.bits .f32 = 32 ∨ (Rect.block (s := S64x64x4) S64x64x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1x64x64.size a ≤ S1024x1x64x64.size a
  hwx0_8 : ∀ i : grid0.Coords, EltTy.bits .f32 = 32 ∨ (Rect.block (s := S1024x1x64x64) S128x1x64x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1x64x64.size a ≤ S1024x1x64x64.size a
  hwx0_9 : ∀ i : grid0.Coords, EltTy.bits .f32 = 32 ∨ (Rect.block (s := S1024x1x64x64) S128x1x64x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x64x4x4.size a ≤ S1024x64x4x4.size a
  hwx0_10 : ∀ i : grid0.Coords, EltTy.bits .f32 = 32 ∨ (Rect.block (s := S1024x64x4x4) S128x64x4x4.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x64x4x4.size a ≤ S1024x64x4x4.size a
  hwx0_11 : ∀ i : grid0.Coords, EltTy.bits .f32 = 32 ∨ (Rect.block (s := S1024x64x4x4) S128x64x4x4.size (cc0_transform_11 i) (hinb0_11 i)).WholeWords (EltTy.packing .f32)

variable [Facts₀]

def dot_S128x512_S512x64_S128x64_1_0_0_1_n_n : DotDims S128x512 S512x64 S128x64 where
  lhsContracting := [1]
  rhsContracting := [0]
  lhsNonContracting := [0]
  rhsNonContracting := [1]
  lhsBatch := []
  rhsBatch := []
  wf := dot_S128x512_S512x64_S128x64_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S128x1x64x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S128x1x64x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_2) S128x64x4x4.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_3) S128x64x4x4.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1024x512 : Shape := ⟨2, ![1024, 512]⟩
abbrev S64x512 : Shape := ⟨2, ![64, 512]⟩
abbrev S64 : Shape := ⟨1, ![64]⟩
abbrev S1024 : Shape := ⟨1, ![1024]⟩
abbrev S64x64x4 : Shape := ⟨3, ![64, 64, 4]⟩
abbrev S512x64 : Shape := ⟨2, ![512, 64]⟩
abbrev S1024x64 : Shape := ⟨2, ![1024, 64]⟩
abbrev S1x64 : Shape := ⟨2, ![1, 64]⟩
abbrev S64x64 : Shape := ⟨2, ![64, 64]⟩
abbrev S_ : Shape := ⟨0, ![]⟩
abbrev S1024x64x1 : Shape := ⟨3, ![1024, 64, 1]⟩
abbrev S1x64x64 : Shape := ⟨3, ![1, 64, 64]⟩
abbrev S1024x64x64 : Shape := ⟨3, ![1024, 64, 64]⟩
abbrev S1024x1x64x64 : Shape := ⟨4, ![1024, 1, 64, 64]⟩
abbrev S512x1024 : Shape := ⟨2, ![512, 1024]⟩
abbrev S1024x1024 : Shape := ⟨2, ![1024, 1024]⟩
abbrev S1x1024 : Shape := ⟨2, ![1, 1024]⟩
abbrev S1024x64x4x4 : Shape := ⟨4, ![1024, 64, 4, 4]⟩
abbrev S1024x1x64x1 : Shape := ⟨4, ![1024, 1, 64, 1]⟩
abbrev S1x64x64x4 : Shape := ⟨4, ![1, 64, 64, 4]⟩
abbrev S1024x64x64x4 : Shape := ⟨4, ![1024, 64, 64, 4]⟩
abbrev S1024x64x1x1 : Shape := ⟨4, ![1024, 64, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S64x512, .f32⟩
  | .hbm, ⟨2, _⟩ => ⟨S64, .f32⟩
  | .hbm, ⟨3, _⟩ => ⟨S1024x512, .f32⟩
  | .hbm, ⟨4, _⟩ => ⟨S1024, .f32⟩
  | .hbm, ⟨5, _⟩ => ⟨S1024x512, .f32⟩
  | .hbm, ⟨6, _⟩ => ⟨S1024, .f32⟩
  | .hbm, ⟨7, _⟩ => ⟨S64x64x4, .f32⟩
  | .hbm, ⟨8, _⟩ => ⟨S512x64, .f32⟩
  | .hbm, ⟨9, _⟩ => ⟨S1024x64, .f32⟩
  | .hbm, ⟨10, _⟩ => ⟨S1x64, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S1024x64, .f32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S64x64, .f32⟩
  | .hbm, ⟨22, _⟩ => ⟨S1024x64x1, .f32⟩
  | .hbm, ⟨23, _⟩ => ⟨S1x64x64, .f32⟩
  | .hbm, ⟨24, _⟩ => ⟨S1024x64x64, .f32⟩
  | .hbm, ⟨25, _⟩ => ⟨S1024x64x64, .f32⟩
  | .hbm, ⟨26, _⟩ => ⟨S1024x64x64, .f32⟩
  | .hbm, ⟨27, _⟩ => ⟨S1024x1x64x64, .f32⟩
  | .hbm, ⟨28, _⟩ => ⟨S1024x64x1, .f32⟩
  | .hbm, ⟨29, _⟩ => ⟨S1x64x64, .f32⟩
  | .hbm, ⟨30, _⟩ => ⟨S1024x64x64, .f32⟩
  | .hbm, ⟨31, _⟩ => ⟨S1024x64x64, .f32⟩
  | .hbm, ⟨32, _⟩ => ⟨S1024x64x64, .f32⟩
  | .hbm, ⟨33, _⟩ => ⟨S1024x1x64x64, .f32⟩
  | .hbm, ⟨34, _⟩ => ⟨S512x1024, .f32⟩
  | .hbm, ⟨35, _⟩ => ⟨S1024x1024, .f32⟩
  | .hbm, ⟨36, _⟩ => ⟨S1x1024, .f32⟩
  | .hbm, ⟨37, _⟩ => ⟨S1024x1024, .f32⟩
  | .hbm, ⟨38, _⟩ => ⟨S1024x1024, .f32⟩
  | .hbm, ⟨39, _⟩ => ⟨S1024x64x4x4, .f32⟩
  | .hbm, ⟨40, _⟩ => ⟨S512x1024, .f32⟩
  | .hbm, ⟨41, _⟩ => ⟨S1024x1024, .f32⟩
  | .hbm, ⟨42, _⟩ => ⟨S1x1024, .f32⟩
  | .hbm, ⟨43, _⟩ => ⟨S1024x1024, .f32⟩
  | .hbm, ⟨44, _⟩ => ⟨S1024x1024, .f32⟩
  | .hbm, ⟨45, _⟩ => ⟨S1024x64x4x4, .f32⟩
  | .hbm, ⟨46, _⟩ => ⟨S1024x1x64x1, .f32⟩
  | .hbm, ⟨47, _⟩ => ⟨S1x64x64x4, .f32⟩
  | .hbm, ⟨48, _⟩ => ⟨S1024x64x64x4, .f32⟩
  | .hbm, ⟨49, _⟩ => ⟨S1024x64x64x4, .f32⟩
  | .hbm, ⟨50, _⟩ => ⟨S1024x64x64x4, .f32⟩
  | .hbm, ⟨51, _⟩ => ⟨S1024x1x64x1, .f32⟩
  | .hbm, ⟨52, _⟩ => ⟨S1x64x64x4, .f32⟩
  | .hbm, ⟨53, _⟩ => ⟨S1024x64x64x4, .f32⟩
  | .hbm, ⟨54, _⟩ => ⟨S1024x64x64x4, .f32⟩
  | .hbm, ⟨55, _⟩ => ⟨S1024x64x64x4, .f32⟩
  | .hbm, ⟨56, _⟩ => ⟨S1024x64x64x4, .f32⟩
  | .hbm, ⟨57, _⟩ => ⟨S1024x64x64x4, .f32⟩
  | .hbm, ⟨58, _⟩ => ⟨S1024x64x64x4, .f32⟩
  | .hbm, ⟨59, _⟩ => ⟨S1024x64x64x4, .f32⟩
  | .hbm, ⟨60, _⟩ => ⟨S1024x64x64x4, .f32⟩
  | .hbm, ⟨61, _⟩ => ⟨S1024x64x64x4, .f32⟩
  | .hbm, ⟨62, _⟩ => ⟨S1024x64x64x4, .f32⟩
  | .hbm, ⟨63, _⟩ => ⟨S1024x64x64x4, .f32⟩
  | .hbm, ⟨64, _⟩ => ⟨S1024x64x64x4, .f32⟩
  | .hbm, ⟨65, _⟩ => ⟨S_, .f32⟩
  | .hbm, ⟨66, _⟩ => ⟨S1024x64, .f32⟩
  | .hbm, ⟨67, _⟩ => ⟨S1024x64, .f32⟩
  | .hbm, ⟨68, _⟩ => ⟨S1024x64x1x1, .f32⟩
  | .hbm, ⟨69, _⟩ => ⟨S_, .f32⟩
  | .hbm, ⟨70, _⟩ => ⟨S1024x64x4x4, .f32⟩
  | .hbm, ⟨71, _⟩ => ⟨S1024x64x4x4, .f32⟩
  | .hbm, ⟨72, _⟩ => ⟨S1024x64x4x4, .f32⟩
  | .hbm, ⟨73, _⟩ => ⟨S1024x64x4x4, .f32⟩
  | .hbm, ⟨74, _⟩ => ⟨S_, .f32⟩
  | .hbm, ⟨75, _⟩ => ⟨S1024x64x4x4, .f32⟩
  | .hbm, ⟨76, _⟩ => ⟨S1024x64x4x4, .f32⟩
  | .hbm, ⟨77, _⟩ => ⟨S1024x64x4x4, .f32⟩
  | .hbm, ⟨78, _⟩ => ⟨S1024x64x4x4, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_0 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_1 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩

abbrev nD : Nat := 1
abbrev τ : Topo := Topo.v7x

variable {F : FTy → Type} [FloatOps F]

class Facts₀ : Prop where
  transposes_S64x512_S512x64_1_0 : S64x512.Transposes [1, 0] S512x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S64x64 : S_.BroadcastsInDim S64x64 (![] : Fin 0 → Fin S64x64.rank)
  bcast_S1024x64_S1024x64x1_0_1 : S1024x64.BroadcastsInDim S1024x64x1 (![0, 1] : Fin 2 → Fin S1024x64x1.rank)
  bcast_S64x64_S1x64x64_1_2 : S64x64.BroadcastsInDim S1x64x64 (![1, 2] : Fin 2 → Fin S1x64x64.rank)
  bcast_S1024x64x1_S1024x64x64_0_1_2 : S1024x64x1.BroadcastsInDim S1024x64x64 (![0, 1, 2] : Fin 3 → Fin S1024x64x64.rank)
  bcast_S1x64x64_S1024x64x64_0_1_2 : S1x64x64.BroadcastsInDim S1024x64x64 (![0, 1, 2] : Fin 3 → Fin S1024x64x64.rank)
  bcast_S1024x64x64_S1024x1x64x64_0_2_3 : S1024x64x64.BroadcastsInDim S1024x1x64x64 (![0, 2, 3] : Fin 3 → Fin S1024x1x64x64.rank)
  transposes_S1024x512_S512x1024_1_0 : S1024x512.Transposes [1, 0] S512x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  shapeCasts_S1024x1024_S1024x64x4x4 : S1024x1024.ShapeCasts S1024x64x4x4
  bcast_S1024x64_S1024x1x64x1_0_2 : S1024x64.BroadcastsInDim S1024x1x64x1 (![0, 2] : Fin 2 → Fin S1024x1x64x1.rank)
  bcast_S64x64x4_S1x64x64x4_1_2_3 : S64x64x4.BroadcastsInDim S1x64x64x4 (![1, 2, 3] : Fin 3 → Fin S1x64x64x4.rank)
  bcast_S1024x1x64x1_S1024x64x64x4_0_1_2_3 : S1024x1x64x1.BroadcastsInDim S1024x64x64x4 (![0, 1, 2, 3] : Fin 4 → Fin S1024x64x64x4.rank)
  bcast_S1x64x64x4_S1024x64x64x4_0_1_2_3 : S1x64x64x4.BroadcastsInDim S1024x64x64x4 (![0, 1, 2, 3] : Fin 4 → Fin S1024x64x64x4.rank)
  reducesTo_S1024x64x64x4_S1024x64_d2_3 : S1024x64x64x4.ReducesTo [2, 3] S1024x64
  h_S_ : 0 < S_.numel
  bcast_S1024x64_S1024x64x1x1_0_1 : S1024x64.BroadcastsInDim S1024x64x1x1 (![0, 1] : Fin 2 → Fin S1024x64x1x1.rank)
  bcast_S_S1024x64x4x4 : S_.BroadcastsInDim S1024x64x4x4 (![] : Fin 0 → Fin S1024x64x4x4.rank)
  bcast_S1024x64x1x1_S1024x64x4x4_0_1_2_3 : S1024x64x1x1.BroadcastsInDim S1024x64x4x4 (![0, 1, 2, 3] : Fin 4 → Fin S1024x64x4x4.rank)
  dot_S1024x512_S512x64_S1024x64_1_0_0_1_n_n_wf : DotDims.WF S1024x512 S512x64 S1024x64 [1] [0] [0] [1] [] []
  dot_S1024x512_S512x1024_S1024x1024_1_0_0_1_n_n_wf : DotDims.WF S1024x512 S512x1024 S1024x1024 [1] [0] [0] [1] [] []
  dot_S1024x64x64x4_S1024x64x4x4_S1024x64x64x4_3_2_2_3_01_01_wf : DotDims.WF S1024x64x64x4 S1024x64x4x4 S1024x64x64x4 [3] [2] [2] [3] [0, 1] [0, 1]

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x64x64x4_S1024x64x4x4_S1024x64x64x4_3_2_2_3_01_01 : DotDims S1024x64x64x4 S1024x64x4x4 S1024x64x64x4 where
  lhsContracting := [3]
  rhsContracting := [2]
  lhsNonContracting := [2]
  rhsNonContracting := [3]
  lhsBatch := [0, 1]
  rhsBatch := [0, 1]
  wf := dot_S1024x64x64x4_S1024x64x4x4_S1024x64x64x4_3_2_2_3_01_01_wf

class Facts : Prop extends Facts₀ where

variable [Facts]
-- ==== Proof.KLayout.lean ====
/-
  The kernel's re-laying steps read at an entry. The body forms every product of the complex matrix product by
  broadcasting: cos θ [p, n] against a [64, 64] column of the selection set gives a [128, 64, 64] array, a row of
  each 4 × 4 precoder gives a [128, 64, 4] array, and their outer product over (n, j) is a [128, 64, 64, 4] array.
  Each lemma here says which entry of its operands one entry of such a re-laid array is.
-/
import proofs.«164868_j87385404605127_1_alg».proof.Proof.Gen.KernelIdeal
import Idealize.ShloMosaic.Lib.Pipeline.Value
import Idealize.ShloMosaic.Lib.ValueIdx
import Idealize.ShloMosaic.PureOps.Ideal.Laws

noncomputable section
namespace Cert.KLayout
open Idealize.ShloMosaic Idealize.ShloMosaic.ValueIdx Cert.KernelIdeal Cert.KernelIdeal.Gen

/-- cos θ [p, n] against a [64, 64] slice S [c, n], both broadcast to [128, 64, 64]. -/
theorem rowcol_apply (C : FVec Ideal S128x64 .f32) (S : FVec Ideal S64x64 .f32)
    (h1 : S128x64.ShapeCasts S128x1x64) (h2 : S128x1x64.Broadcasts S128x64x64)
    (h3 : S64x64.ShapeCasts S1x64x64) (h4 : S1x64x64.Broadcasts S128x64x64)
    (p : Fin 128) (c n : Fin 64) :
    mulf (broadcastTo S128x64x64 (shapeCast S128x1x64 C h1) h2) (broadcastTo S128x64x64 (shapeCast S1x64x64 S h3) h4) (ix3 p c n)
      = C (ix2 p n) * S (ix2 c n) := by
  rw [mulf_apply]
  congr 1
  · refine (broadcastTo_apply _ h2 (ix3 p c n) (ix3 p 0 n) (fun a => ?_)).trans ?_
    · match a with
      | ⟨0, _⟩ => rfl
      | ⟨1, _⟩ => rfl
      | ⟨2, _⟩ => rfl
    · refine shapeCast_apply _ h1 (ix3 p 0 n) (ix2 p n) ?_
      rw [Shape.rowMajor_val_two, Shape.rowMajor_val_three]
      show p.val * 64 + n.val = (p.val * 1 + 0) * 64 + n.val
      omega
  · refine (broadcastTo_apply _ h4 (ix3 p c n) (ix3 0 c n) (fun a => ?_)).trans ?_
    · match a with
      | ⟨0, _⟩ => rfl
      | ⟨1, _⟩ => rfl
      | ⟨2, _⟩ => rfl
    · refine shapeCast_apply _ h3 (ix3 0 c n) (ix2 c n) ?_
      rw [Shape.rowMajor_val_two, Shape.rowMajor_val_three]
      show c.val * 64 + n.val = (0 * 64 + c.val) * 64 + n.val
      omega

/-- Column `o` of the selection set, as a [64, 64] array. -/
theorem csel_apply (P5 : FVec Ideal S64x64x4 .f32) (o : Nat) (ho : o < 4)
    (hs : S64x64x4.Slices ![0, 0, o] S64x64x1) (hc : S64x64x1.ShapeCasts S64x64) (c n : Fin 64) :
    shapeCast S64x64 (extractStridedSlice S64x64x1 ![0, 0, o] P5 hs) hc (ix2 c n) = P5 (ix3 c n ⟨o, ho⟩) := by
  refine (shapeCast_apply _ hc (ix2 c n) (ix3 c n 0) ?_).trans ?_
  · rw [Shape.rowMajor_val_two, Shape.rowMajor_val_three]
    show (c.val * 64 + n.val) * 1 + 0 = c.val * 64 + n.val
    omega
  · refine extractStridedSlice_apply _ P5 hs (ix3 c n 0) (ix3 c n ⟨o, ho⟩) (fun a => ?_)
    match a with
    | ⟨0, _⟩ => show c.val = 0 + c.val; omega
    | ⟨1, _⟩ => show n.val = 0 + n.val; omega
    | ⟨2, _⟩ => show o = o + 0; omega

/-- Row `o` of each 4 × 4 precoder, as a [128, 64, 4] array. -/
theorem dsel_apply (D : FVec Ideal S128x64x4x4 .f32) (o : Nat) (ho : o < 4)
    (hs : S128x64x4x4.Slices ![0, 0, o, 0] S128x64x1x4) (hc : S128x64x1x4.ShapeCasts S128x64x4)
    (p : Fin 128) (c : Fin 64) (j : Fin 4) :
    shapeCast S128x64x4 (extractStridedSlice S128x64x1x4 ![0, 0, o, 0] D hs) hc (ix3 p c j) = D (ix4 p c ⟨o, ho⟩ j) := by
  refine (shapeCast_apply _ hc (ix3 p c j) (ix4 p c 0 j) ?_).trans ?_
  · rw [Shape.rowMajor_val_three, Shape.rowMajor_val_four]
    show ((p.val * 64 + c.val) * 1 + 0) * 4 + j.val = (p.val * 64 + c.val) * 4 + j.val
    omega
  · refine extractStridedSlice_apply _ D hs (ix4 p c 0 j) (ix4 p c ⟨o, ho⟩ j) (fun a => ?_)
    match a with
    | ⟨0, _⟩ => show p.val = 0 + p.val; omega
    | ⟨1, _⟩ => show c.val = 0 + c.val; omega
    | ⟨2, _⟩ => show o = o + 0; omega
    | ⟨3, _⟩ => show j.val = 0 + j.val; omega

/-- A [128, 64, 64] array A[p, c, n] times a [128, 64, 4] array B[p, c, j], as [128, 64, 64, 4]. -/
theorem outer_apply (A : FVec Ideal S128x64x64 .f32) (B : FVec Ideal S128x64x4 .f32)
    (h1 : S128x64x64.ShapeCasts S128x64x64x1) (h2 : S128x64x64x1.Broadcasts S128x64x64x4)
    (h3 : S128x64x4.ShapeCasts S128x64x1x4) (h4 : S128x64x1x4.Broadcasts S128x64x64x4)
    (p : Fin 128) (c n : Fin 64) (j : Fin 4) :
    mulf (broadcastTo S128x64x64x4 (shapeCast S128x64x64x1 A h1) h2) (broadcastTo S128x64x64x4 (shapeCast S128x64x1x4 B h3) h4) (ix4 p c n j)
      = A (ix3 p c n) * B (ix3 p c j) := by
  rw [mulf_apply]
  congr 1
  · refine (broadcastTo_apply _ h2 (ix4 p c n j) (ix4 p c n 0) (fun a => ?_)).trans ?_
    · match a with
      | ⟨0, _⟩ => rfl
      | ⟨1, _⟩ => rfl
      | ⟨2, _⟩ => rfl
      | ⟨3, _⟩ => rfl
    · refine shapeCast_apply _ h1 (ix4 p c n 0) (ix3 p c n) ?_
      rw [Shape.rowMajor_val_three, Shape.rowMajor_val_four]
      show (p.val * 64 + c.val) * 64 + n.val = ((p.val * 64 + c.val) * 64 + n.val) * 1 + 0
      omega
  · refine (broadcastTo_apply _ h4 (ix4 p c n j) (ix4 p c 0 j) (fun a => ?_)).trans ?_
    · match a with
      | ⟨0, _⟩ => rfl
      | ⟨1, _⟩ => rfl
      | ⟨2, _⟩ => rfl
      | ⟨3, _⟩ => rfl
    · refine shapeCast_apply _ h3 (ix4 p c 0 j) (ix3 p c j) ?_
      rw [Shape.rowMajor_val_three, Shape.rowMajor_val_four]
      show (p.val * 64 + c.val) * 4 + j.val = ((p.val * 64 + c.val) * 1 + 0) * 4 + j.val
      omega

end Cert.KLayout
end
-- ==== Proof.LibPlainDot.lean ====
/-
  The plain matrix product [M, K] × [K, N] → [M, N] (contract the left operand's second axis with the
  right operand's first) read at an entry, over the extended reals: entry (r, n) of the product is
  ∑ k, l (r, k) · r (k, n). Two operations compute it: a vector matrix product into an accumulator that
  is zero everywhere, and the host's dot_general. Both are that one finite sum, hence equal to each
  other; no order of summation and no rounding is left in either, and nothing here needs an entry
  to be finite.
-/
import Idealize.ShloMosaic.PureOps.Ideal.Laws
import Idealize.ShloMosaic.Lib.ValueIdx

noncomputable section

namespace PlainDot

open Idealize.ShloMosaic Idealize.ShloMosaic.ValueIdx

variable {M K N : Nat}

/-- The contraction runs over one axis, of extent `K`. -/
theorem contr_rank : (DotDims.plain M K N).contr.rank = 1 := rfl
theorem contr_size : (DotDims.plain M K N).contr.size ⟨0, by rw [contr_rank]; exact Nat.one_pos⟩ = K := rfl

/-- The left operand is read in the result's row … -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … at the contraction position; -/
theorem lhs_col (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single rfl j q
/-- the right operand at the contraction position … -/
theorem rhs_row (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single rfl j q
/-- … in the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index, re-indexed by the one coordinate `k : Fin K`: the left operand at
    (row of `j`, `k`) times the right operand at (`k`, column of `j`). -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  refine Finset.sum_congr rfl fun k _ => ?_
  have hk := contrEquiv1_symm_val (DotDims.plain M K N) K contr_rank contr_size k
  have el : (DotDims.plain M K N).lhsIdx j ((contrEquiv1 (DotDims.plain M K N) K contr_rank contr_size).symm k) = ix2 (j 0) k :=
    funext fun a => Fin.ext (by
      match a with
      | ⟨0, _⟩ => exact lhs_row _ _
      | ⟨1, _⟩ => exact (lhs_col _ _).trans hk)
  have er : (DotDims.plain M K N).rhsIdx j ((contrEquiv1 (DotDims.plain M K N) K contr_rank contr_size).symm k) = ix2 k (j 1) :=
    funext fun a => Fin.ext (by
      match a with
      | ⟨0, _⟩ => exact (rhs_row _ _).trans hk
      | ⟨1, _⟩ => exact rhs_col _ _)
  exact congrArg₂ (· * ·) (congrArg l el) (congrArg r er)

/-- A vector matrix product into the accumulator that is zero everywhere, at an entry. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr l r j)

/-- The host's dot_general, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr l r j)

end PlainDot

end
-- ==== Proof.Spec.lean ====
/-
  The beamforming layer as ONE function of its inputs, entry by entry, on the extended reals.

  For one batch row `xr` (512 features) and the weights:
    θ n        = (∑ k, xr k · W_A n k) + b_A n                         (64 phases)
    A_re n n'  = cos (θ n) · [n = n'],   A_im n n' = sin (θ n) · [n = n']   (the diagonal embeddings)
    D_re q     = (∑ k, xr k · W_Dr q k) + b_Dr q,  q = 16·c + 4·k + j   (64 precoders of 4 × 4), D_im likewise
    V_re c n j = ∑ k, (cos (θ n) · C c n k) · D_re c k j  −  ∑ k, (sin (θ n) · C c n k) · D_im c k j
    V_im c n j = ∑ k, (cos (θ n) · C c n k) · D_im c k j  +  ∑ k, (sin (θ n) · C c n k) · D_re c k j
    ‖V‖ c      = sqrt (z + ∑ n, ∑ j, (V_re c n j)² + (V_im c n j)²)      (`z` is the sum's starting value, 0)
    out c k j  = (2 · D c k j) / ‖V‖ c.
  The product (diag(e^{iθ}) · C) · D is complex 64 × 4 by 4 × 4; its real and imaginary parts are the four real sums
  above. A program that accumulates the four terms of each sum one after the other, subtracting as it goes,
  computes ((((0 + a₀) − b₀) + a₁) − b₁ …): on the extended reals that is (∑ a) − (∑ b) as soon as the subtracted
  terms b are real numbers (`fold_sub_eq`), and the all-plus version is (∑ a) + (∑ b) always (`fold_add_eq`).
-/
import Idealize.ShloMosaic.PureOps.Ideal

noncomputable section

namespace Cert.Beam

open Idealize.ShloMosaic

/-- The identity matrix's entry as an extended real. -/
def eye (n n' : Fin 64) : EReal := if n = n' then 1 else 0

section Row
variable (xr : Fin 512 → EReal)

/-- One affine output of a dense layer on the row: ∑ k, xr k · w k, plus the bias. -/
def lin (w : Fin 512 → EReal) (b : EReal) : EReal := (∑ k : Fin 512, xr k * w k) + b

/-- The flat position of entry (c, k, j) of the 64 precoders of 4 × 4. -/
def dq (c : Fin 64) (k j : Fin 4) : Fin 1024 := ⟨c.val * 16 + k.val * 4 + j.val, by have := c.isLt; have := k.isLt; have := j.isLt; omega⟩

variable (wa : Fin 64 → Fin 512 → EReal) (ba : Fin 64 → EReal)
variable (wr : Fin 1024 → Fin 512 → EReal) (br : Fin 1024 → EReal)
variable (wi : Fin 1024 → Fin 512 → EReal) (bi : Fin 1024 → EReal)
variable (cs : Fin 64 → Fin 64 → Fin 4 → EReal)

/-- The phase of antenna `n`. -/
def theta (n : Fin 64) : EReal := lin xr (wa n) (ba n)

/-- Real part of the diagonal analog beamformer: cos θ on the diagonal. -/
def aRe (n n' : Fin 64) : EReal := Ideal.cos (theta xr wa ba n) * eye n n'

/-- Imaginary part of the diagonal analog beamformer: sin θ on the diagonal. -/
def aIm (n n' : Fin 64) : EReal := Ideal.sin (theta xr wa ba n) * eye n n'

/-- Real part of the digital precoder entry (c, k, j). -/
def dRe (c : Fin 64) (k j : Fin 4) : EReal := lin xr (wr (dq c k j)) (br (dq c k j))

/-- Imaginary part of the digital precoder entry (c, k, j). -/
def dIm (c : Fin 64) (k j : Fin 4) : EReal := lin xr (wi (dq c k j)) (bi (dq c k j))

/-- Row n of cos θ · C c, entry k. -/
def arc (c n : Fin 64) (k : Fin 4) : EReal := Ideal.cos (theta xr wa ba n) * cs c n k

/-- Row n of sin θ · C c, entry k. -/
def aic (c n : Fin 64) (k : Fin 4) : EReal := Ideal.sin (theta xr wa ba n) * cs c n k

/-- Real part of (diag(e^{iθ}) C_c) D_c at (n, j). -/
def vRe (c n : Fin 64) (j : Fin 4) : EReal :=
  (∑ k : Fin 4, arc xr wa ba cs c n k * dRe xr wr br c k j) - (∑ k : Fin 4, aic xr wa ba cs c n k * dIm xr wi bi c k j)

/-- Imaginary part of (diag(e^{iθ}) C_c) D_c at (n, j). -/
def vIm (c n : Fin 64) (j : Fin 4) : EReal :=
  (∑ k : Fin 4, arc xr wa ba cs c n k * dIm xr wi bi c k j) + (∑ k : Fin 4, aic xr wa ba cs c n k * dRe xr wr br c k j)

/-- The squared modulus of entry (n, j) of the product. -/
def vSq (c n : Fin 64) (j : Fin 4) : EReal :=
  vRe xr wa ba wr br wi bi cs c n j * vRe xr wa ba wr br wi bi cs c n j
    + vIm xr wa ba wr br wi bi cs c n j * vIm xr wa ba wr br wi bi cs c n j

/-- The Frobenius norm of the 64 × 4 product for selection c (the sum started from `z`). -/
def vF (z : EReal) (c : Fin 64) : EReal :=
  Ideal.sqrt (z + ∑ n : Fin 64, ∑ j : Fin 4, vSq xr wa ba wr br wi bi cs c n j)

/-- The rescaled real precoder: (two · D_re) / ‖V‖. -/
def outRe (two z : EReal) (c : Fin 64) (k j : Fin 4) : EReal :=
  Ideal.div (two * dRe xr wr br c k j) (vF xr wa ba wr br wi bi cs z c)

/-- The rescaled imaginary precoder: (two · D_im) / ‖V‖. -/
def outIm (two z : EReal) (c : Fin 64) (k j : Fin 4) : EReal :=
  Ideal.div (two * dIm xr wi bi c k j) (vF xr wa ba wr br wi bi cs z c)

end Row

/-! ## The two accumulation orders -/

/-- Adding the eight terms one after the other, the `b`s SUBTRACTED as they come, is the difference of the two sums
    when every `b` is a real number (negation distributes over a sum of reals; the `a`s may be infinite). -/
theorem fold_sub_eq (a : Fin 4 → EReal) (b : Fin 4 → ℝ) :
    ((((((((0 : EReal) + a 0) - (b 0 : EReal)) + a 1) - (b 1 : EReal)) + a 2) - (b 2 : EReal)) + a 3) - (b 3 : EReal)
      = (∑ k : Fin 4, a k) - (∑ k : Fin 4, ((b k : ℝ) : EReal)) := by
  rw [Fin.sum_univ_four, Fin.sum_univ_four]
  have hb : ((b 0 : ℝ) : EReal) + (b 1 : ℝ) + (b 2 : ℝ) + (b 3 : ℝ) = ((b 0 + b 1 + b 2 + b 3 : ℝ) : EReal) := by
    simp only [EReal.coe_add]
  rw [hb]
  simp only [sub_eq_add_neg, ← EReal.coe_neg, zero_add]
  have hn : ((-(b 0 + b 1 + b 2 + b 3) : ℝ) : EReal) = ((-b 0 : ℝ) : EReal) + ((-b 1 : ℝ) : EReal) + ((-b 2 : ℝ) : EReal) + ((-b 3 : ℝ) : EReal) := by
    rw [← EReal.coe_add, ← EReal.coe_add, ← EReal.coe_add]; congr 1; ring
  rw [hn]
  abel

/-- Adding the eight terms one after the other is the sum of the two sums (no finiteness needed). -/
theorem fold_add_eq (a b : Fin 4 → EReal) :
    ((((((((0 : EReal) + a 0) + b 0) + a 1) + b 1) + a 2) + b 2) + a 3) + b 3
      = (∑ k : Fin 4, a k) + (∑ k : Fin 4, b k) := by
  rw [Fin.sum_univ_four, Fin.sum_univ_four, zero_add]
  abel

end Cert.Beam

end
-- ==== Proof.SpecAt.lean ====
/-
  The beamforming layer read on ARRAYS: the argument arrays are functions on shape indices, a batch row of `x` is the
  function of its feature, and the four result arrays are the row-wise functions of `Cert.Beam` at each index:
    A_re [b, 0, n, n'], A_im [b, 0, n, n'], out_re [b, c, k, j], out_im [b, c, k, j].
  The constant 2 is kept as the f32 pattern both programs print; the norm's sum starts from 0.
-/
import proofs.«164868_j87385404605127_1_alg».proof.Proof.Spec
import Idealize.ShloMosaic.Lib.ValueIdx

noncomputable section

namespace Cert.Beam

open Idealize.ShloMosaic Idealize.ShloMosaic.ValueIdx

/-- Row `b` of a [B, 512] array. -/
def row {B : Nat} (x : (⟨2, ![B, 512]⟩ : Shape).Idx → EReal) (b : Fin B) : Fin 512 → EReal := fun k => x (ix2 b k)

/-- A [R, 512] weight array as rows. -/
def mat {R : Nat} (w : (⟨2, ![R, 512]⟩ : Shape).Idx → EReal) : Fin R → Fin 512 → EReal := fun n k => w (ix2 n k)

/-- A bias vector [R]. -/
def vec {R : Nat} (b : (⟨1, ![R]⟩ : Shape).Idx → EReal) : Fin R → EReal := fun n => b (ix1 n)

/-- A bias kept as a [1, R] row. -/
def vec1 {R : Nat} (b : (⟨2, ![1, R]⟩ : Shape).Idx → EReal) : Fin R → EReal := fun n => b (ix2 0 n)

/-- The selection set [64, 64, 4]. -/
def cub (c : (⟨3, ![64, 64, 4]⟩ : Shape).Idx → EReal) : Fin 64 → Fin 64 → Fin 4 → EReal := fun a n k => c (ix3 a n k)

/-- The f32 pattern of 2.0, as both programs print it. -/
def two : EReal := Ideal.ofBits .f32 0x40000000#32

variable (x0 : (⟨2, ![1024, 512]⟩ : Shape).Idx → EReal) (x1 : (⟨2, ![64, 512]⟩ : Shape).Idx → EReal) (x2 : (⟨1, ![64]⟩ : Shape).Idx → EReal)
variable (x3 : (⟨2, ![1024, 512]⟩ : Shape).Idx → EReal) (x4 : (⟨1, ![1024]⟩ : Shape).Idx → EReal)
variable (x5 : (⟨2, ![1024, 512]⟩ : Shape).Idx → EReal) (x6 : (⟨1, ![1024]⟩ : Shape).Idx → EReal)
variable (x7 : (⟨3, ![64, 64, 4]⟩ : Shape).Idx → EReal)

/-- The real diagonal embedding as an array [1024, 1, 64, 64]. -/
def G8 : (⟨4, ![1024, 1, 64, 64]⟩ : Shape).Idx → EReal := fun i => aRe (row x0 (i 0)) (mat x1) (vec x2) (i 2) (i 3)

/-- The imaginary diagonal embedding as an array [1024, 1, 64, 64]. -/
def G9 : (⟨4, ![1024, 1, 64, 64]⟩ : Shape).Idx → EReal := fun i => aIm (row x0 (i 0)) (mat x1) (vec x2) (i 2) (i 3)

/-- The rescaled real precoders as an array [1024, 64, 4, 4]. -/
def G10 : (⟨4, ![1024, 64, 4, 4]⟩ : Shape).Idx → EReal := fun i =>
  outRe (row x0 (i 0)) (mat x1) (vec x2) (mat x3) (vec x4) (mat x5) (vec x6) (cub x7) two 0 (i 1) (i 2) (i 3)

/-- The rescaled imaginary precoders as an array [1024, 64, 4, 4]. -/
def G11 : (⟨4, ![1024, 64, 4, 4]⟩ : Shape).Idx → EReal := fun i =>
  outIm (row x0 (i 0)) (mat x1) (vec x2) (mat x3) (vec x4) (mat x5) (vec x6) (cub x7) two 0 (i 1) (i 2) (i 3)

end Cert.Beam

end
-- ==== Proof.KDense.lean ====
/-
  The kernel's dense layers and its identity matrix, read at an entry.

  A matrix product of the [128, 512] block of rows with the transposed [R, 512] weights, into a zero accumulator,
  plus the [1, R] bias broadcast down the rows, is at (p, q) the affine form ∑ k, x[p, k] · W[q, k] + b[q]: the
  specification's `lin` on row p. The [128, 1024] result viewed as [128, 64, 4, 4] reads flat position
  16 c + 4 k + j at (c, k, j). The identity matrix is the comparison of a row counter with a column counter,
  widened and converted: 1 on the diagonal and 0 off it.
-/
import proofs.«164868_j87385404605127_1_alg».proof.Proof.Gen.KernelIdeal.Skeleton
import proofs.«164868_j87385404605127_1_alg».proof.Proof.LibPlainDot
import proofs.«164868_j87385404605127_1_alg».proof.Proof.SpecAt
import Idealize.ShloMosaic.Lib.Pipeline.Value
import Idealize.ShloMosaic.Lib.ValueIdx
import Idealize.ShloMosaic.PureOps.Ideal.Laws

noncomputable section
namespace Cert.KDense
open Idealize.ShloMosaic Idealize.ShloMosaic.ValueIdx Cert.KernelIdeal Cert.KernelIdeal.Gen

/-- The [128, 1024] array viewed as [128, 64, 4, 4]. -/
theorem reshape_apply (X : FVec Ideal S128x1024 .f32) (h : S128x1024.ShapeCasts S128x64x4x4)
    (p : Fin 128) (c : Fin 64) (k j : Fin 4) :
    shapeCast S128x64x4x4 X h (ix4 p c k j) = X (ix2 p (Cert.Beam.dq c k j)) := by
  refine shapeCast_apply _ h (ix4 p c k j) (ix2 p (Cert.Beam.dq c k j)) ?_
  rw [Shape.rowMajor_val_two, Shape.rowMajor_val_four]
  show p.val * 1024 + (c.val * 16 + k.val * 4 + j.val) = ((p.val * 64 + c.val) * 4 + k.val) * 4 + j.val
  omega

/-- The wide dense layer (1024 outputs) at (p, q). -/
theorem dense1024_apply (P0 : FVec Ideal S128x512 .f32) (W : FVec Ideal S1024x512 .f32) (b : FVec Ideal S1x1024 .f32)
    (ht : S1024x512.Transposes [1, 0] S512x1024) (hc : S1x1024.ShapeCasts S1x1024) (hb : S1x1024.Broadcasts S128x1024)
    (p : Fin 128) (q : Fin 1024) :
    addf (matmul dot_S128x512_S512x1024_S128x1024_1_0_0_1_n_n none P0 (transpose S512x1024 [1, 0] W ht) (constant S128x1024 .f32 0x00000000#32))
        (broadcastTo S128x1024 (shapeCast S1x1024 b hc) hb) (ix2 p q)
      = Cert.Beam.lin (Cert.Beam.row P0 p) (Cert.Beam.mat W q) (Cert.Beam.vec1 b q) := by
  rw [addf_apply]
  unfold Cert.Beam.lin
  congr 1
  · refine (PlainDot.matmul_zero_apply (M := 128) (K := 512) (N := 1024) none P0 (transpose S512x1024 [1, 0] W ht) (ix2 p q)).trans ?_
    refine Finset.sum_congr rfl fun k _ => ?_
    congr 1
    refine transpose_apply [1, 0] W ht (ix2 k q) (ix2 q k) (fun a => ?_)
    match a with
    | ⟨0, _⟩ => rfl
    | ⟨1, _⟩ => rfl
  · rw [shapeCast_self]
    refine broadcastTo_apply b hb (ix2 p q) (ix2 0 q) (fun a => ?_)
    match a with
    | ⟨0, _⟩ => rfl
    | ⟨1, _⟩ => rfl

/-- The phase layer (64 outputs) at (p, n). -/
theorem dense64_apply (P0 : FVec Ideal S128x512 .f32) (W : FVec Ideal S64x512 .f32) (b : FVec Ideal S1x64 .f32)
    (ht : S64x512.Transposes [1, 0] S512x64) (hc : S1x64.ShapeCasts S1x64) (hb : S1x64.Broadcasts S128x64)
    (p : Fin 128) (n : Fin 64) :
    addf (matmul dot_S128x512_S512x64_S128x64_1_0_0_1_n_n none P0 (transpose S512x64 [1, 0] W ht) (constant S128x64 .f32 0x00000000#32))
        (broadcastTo S128x64 (shapeCast S1x64 b hc) hb) (ix2 p n)
      = Cert.Beam.lin (Cert.Beam.row P0 p) (Cert.Beam.mat W n) (Cert.Beam.vec1 b n) := by
  rw [addf_apply]
  unfold Cert.Beam.lin
  congr 1
  · refine (PlainDot.matmul_zero_apply (M := 128) (K := 512) (N := 64) none P0 (transpose S512x64 [1, 0] W ht) (ix2 p n)).trans ?_
    refine Finset.sum_congr rfl fun k _ => ?_
    congr 1
    refine transpose_apply [1, 0] W ht (ix2 k n) (ix2 n k) (fun a => ?_)
    match a with
    | ⟨0, _⟩ => rfl
    | ⟨1, _⟩ => rfl
  · rw [shapeCast_self]
    refine broadcastTo_apply b hb (ix2 p n) (ix2 0 n) (fun a => ?_)
    match a with
    | ⟨0, _⟩ => rfl
    | ⟨1, _⟩ => rfl

/-- The phase θ[p, n] of the block. -/
theorem theta_apply (P0 : FVec Ideal S128x512 .f32) (P1 : FVec Ideal S64x512 .f32) (P2 : FVec Ideal S1x64 .f32) (p : Fin 128) (n : Fin 64) :
    k0_pay4 (F := Ideal) P0 P1 P2 (ix2 p n) = Cert.Beam.theta (Cert.Beam.row P0 p) (Cert.Beam.mat P1) (Cert.Beam.vec1 P2) n :=
  dense64_apply P0 P1 P2 _ _ _ p n

/-- The widened comparison bit as a number: 1 when the two counters agree, 0 otherwise. -/
theorem eye_scalar (n n' : Fin 64) :
    FloatOps.sitofp (F := Ideal) .f32 ((IntOp.cmpi .eq (BitVec.ofNat 32 n.val) (BitVec.ofNat 32 n'.val)).setWidth 32) = Cert.Beam.eye n n' := by
  unfold Cert.Beam.eye
  by_cases h : n = n'
  · subst h
    rw [if_pos rfl]
    simp [IntOp.cmpi, FloatOps.sitofp]
  · rw [if_neg h]
    have hne : (BitVec.ofNat 32 n.val) ≠ (BitVec.ofNat 32 n'.val) := by
      intro he
      apply h
      apply Fin.ext
      have := congrArg BitVec.toNat he
      simp only [BitVec.toNat_ofNat] at this
      have h1 := n.isLt; have h2 := n'.isLt
      omega
    have hb : (BitVec.ofNat 32 n.val == BitVec.ofNat 32 n'.val) = false := beq_eq_false_iff_ne.mpr hne
    simp [IntOp.cmpi, FloatOps.sitofp, hb]

/-- The kernel's identity matrix at (n, n'). -/
theorem eye_apply (n n' : Fin 64) : k0_pay7 (F := Ideal) (ix2 n n') = Cert.Beam.eye n n' := by
  unfold k0_pay7
  rw [sitofp_apply, extui_apply]
  show FloatOps.sitofp (F := Ideal) .f32 ((IntOp.cmpi .eq (iota .tc S64x64 32 [0] iota_S64x64_d0_w32 (ix2 n n')) (iota .tc S64x64 32 [1] iota_S64x64_d1_w32 (ix2 n n'))).setWidth 32) = _
  rw [iota_single_apply, iota_single_apply]
  exact eye_scalar n n'

end Cert.KDense
end
-- ==== Proof.SpecReal.lean ====
/-
  Real-valued entries, and the two accumulation orders on the layer's own terms.

  An extended real that is a real number stays one under finite sums, products, sine and cosine; so when the
  row, the weights and the selection set have real entries, every phase θ, every cos θ · C and sin θ · C entry
  and every precoder entry is real. That is what lets a running accumulation that subtracts the imaginary
  cross terms one by one, ((((0 + a₀) − b₀) + a₁) − b₁) …, be read as (∑ a) − (∑ b): the real part of the
  complex product. The imaginary part is all additions and needs nothing.
-/
import proofs.«164868_j87385404605127_1_alg».proof.Proof.Spec

noncomputable section

namespace Cert.Beam

open Idealize.ShloMosaic

/-- The extended real is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

theorem IsR.sin {x : EReal} (hx : IsR x) : IsR (Ideal.sin x) := by
  obtain ⟨a, rfl⟩ := hx; exact ⟨Real.sin a, rfl⟩

theorem IsR.cos {x : EReal} (hx : IsR x) : IsR (Ideal.cos x) := by
  obtain ⟨a, rfl⟩ := hx; exact ⟨Real.cos a, rfl⟩

section Row
variable (xr : Fin 512 → EReal)
variable (wa : Fin 64 → Fin 512 → EReal) (ba : Fin 64 → EReal)
variable (wr : Fin 1024 → Fin 512 → EReal) (br : Fin 1024 → EReal)
variable (wi : Fin 1024 → Fin 512 → EReal) (bi : Fin 1024 → EReal)
variable (cs : Fin 64 → Fin 64 → Fin 4 → EReal)

/-- A dense layer's output on a real row with real weights and bias is real. -/
theorem lin_isR (w : Fin 512 → EReal) (b : EReal) (hx : ∀ k, IsR (xr k)) (hw : ∀ k, IsR (w k)) (hb : IsR b) :
    IsR (lin xr w b) :=
  (IsR.sum _ _ fun k => (hx k).mul (hw k)).add hb

/-- The subtracted cross term (sin θ · C) · D_im is real when its inputs are. -/
theorem cross_isR (hx : ∀ k, IsR (xr k)) (hwa : ∀ n k, IsR (wa n k)) (hba : ∀ n, IsR (ba n))
    (hwi : ∀ q k, IsR (wi q k)) (hbi : ∀ q, IsR (bi q)) (hcs : ∀ c n k, IsR (cs c n k))
    (c n : Fin 64) (k j : Fin 4) : IsR (aic xr wa ba cs c n k * dIm xr wi bi c k j) :=
  ((lin_isR xr (wa n) (ba n) hx (hwa n) (hba n)).sin.mul (hcs c n k)).mul
    (lin_isR xr (wi (dq c k j)) (bi (dq c k j)) hx (hwi _) (hbi _))

/-- The real part accumulated term by term, the cross terms subtracted as they come, is `vRe`. -/
theorem vRe_fold (hx : ∀ k, IsR (xr k)) (hwa : ∀ n k, IsR (wa n k)) (hba : ∀ n, IsR (ba n))
    (hwi : ∀ q k, IsR (wi q k)) (hbi : ∀ q, IsR (bi q)) (hcs : ∀ c n k, IsR (cs c n k))
    (c n : Fin 64) (j : Fin 4) :
    ((((((((0 : EReal) + arc xr wa ba cs c n 0 * dRe xr wr br c 0 j) - aic xr wa ba cs c n 0 * dIm xr wi bi c 0 j)
        + arc xr wa ba cs c n 1 * dRe xr wr br c 1 j) - aic xr wa ba cs c n 1 * dIm xr wi bi c 1 j)
        + arc xr wa ba cs c n 2 * dRe xr wr br c 2 j) - aic xr wa ba cs c n 2 * dIm xr wi bi c 2 j)
        + arc xr wa ba cs c n 3 * dRe xr wr br c 3 j) - aic xr wa ba cs c n 3 * dIm xr wi bi c 3 j
      = vRe xr wa ba wr br wi bi cs c n j := by
  choose b hb using fun k : Fin 4 => cross_isR xr wa ba wi bi cs hx hwa hba hwi hbi hcs c n k j
  rw [hb 0, hb 1, hb 2, hb 3]
  rw [fold_sub_eq (fun k => arc xr wa ba cs c n k * dRe xr wr br c k j) b]
  unfold vRe
  congr 1
  exact Finset.sum_congr rfl fun k _ => (hb k).symm

/-- The imaginary part accumulated term by term is `vIm` (additions only: no finiteness needed). -/
theorem vIm_fold (c n : Fin 64) (j : Fin 4) :
    ((((((((0 : EReal) + arc xr wa ba cs c n 0 * dIm xr wi bi c 0 j) + aic xr wa ba cs c n 0 * dRe xr wr br c 0 j)
        + arc xr wa ba cs c n 1 * dIm xr wi bi c 1 j) + aic xr wa ba cs c n 1 * dRe xr wr br c 1 j)
        + arc xr wa ba cs c n 2 * dIm xr wi bi c 2 j) + aic xr wa ba cs c n 2 * dRe xr wr br c 2 j)
        + arc xr wa ba cs c n 3 * dIm xr wi bi c 3 j) + aic xr wa ba cs c n 3 * dRe xr wr br c 3 j
      = vIm xr wa ba wr br wi bi cs c n j :=
  fold_add_eq (fun k => arc xr wa ba cs c n k * dIm xr wi bi c k j) (fun k => aic xr wa ba cs c n k * dRe xr wr br c k j)

end Row

end Cert.Beam

end
-- ==== Proof.KTerms.lean ====
/-
  The kernel's sixteen products and its two running accumulations, read at an entry.

  One product term is (C[p, n] · cset[c, n, o]) · D[p, c, o, j] laid out on [128, 64, 64, 4], for C the cosines or
  the sines of the phases, D the real or the imaginary precoders and o the contraction position. The real
  accumulation adds the cos · D_re terms and subtracts the sin · D_im terms as o runs over 0 … 3; the imaginary one
  adds cos · D_im and sin · D_re. At an entry (p, c, n, j) they are the specification's `vRe` and `vIm` on row p
  (the first when the row, the phase layer, the imaginary precoder layer and the selection set have real entries).
-/
import proofs.«164868_j87385404605127_1_alg».proof.Proof.KLayout
import proofs.«164868_j87385404605127_1_alg».proof.Proof.KDense
import proofs.«164868_j87385404605127_1_alg».proof.Proof.SpecReal

noncomputable section
namespace Cert.KTerms
open Idealize.ShloMosaic Idealize.ShloMosaic.ValueIdx Cert.KernelIdeal Cert.KernelIdeal.Gen Cert.Beam

/-- One product term: (C[p, n] · cset[c, n, o]) · D[p, c, o, j] on [128, 64, 64, 4]. -/
def T (C : FVec Ideal S128x64 .f32) (P5 : FVec Ideal S64x64x4 .f32) (D : FVec Ideal S128x64x4x4 .f32) (o : Nat)
    (hs5 : S64x64x4.Slices ![0, 0, o] S64x64x1) (hsD : S128x64x4x4.Slices ![0, 0, o, 0] S128x64x1x4) : FVec Ideal S128x64x64x4 .f32 :=
  mulf (broadcastTo S128x64x64x4 (shapeCast S128x64x64x1 (mulf (broadcastTo S128x64x64 (shapeCast S128x1x64 C shapeCasts_S128x64_S128x1x64) broadcasts_S128x1x64_S128x64x64) (broadcastTo S128x64x64 (shapeCast S1x64x64 (shapeCast S64x64 (extractStridedSlice S64x64x1 ![0, 0, o] P5 hs5) shapeCasts_S64x64x1_S64x64) shapeCasts_S64x64_S1x64x64) broadcasts_S1x64x64_S128x64x64)) shapeCasts_S128x64x64_S128x64x64x1) broadcasts_S128x64x64x1_S128x64x64x4) (broadcastTo S128x64x64x4 (shapeCast S128x64x1x4 (shapeCast S128x64x4 (extractStridedSlice S128x64x1x4 ![0, 0, o, 0] D hsD) shapeCasts_S128x64x1x4_S128x64x4) shapeCasts_S128x64x4_S128x64x1x4) broadcasts_S128x64x1x4_S128x64x64x4)

theorem T_apply (C : FVec Ideal S128x64 .f32) (P5 : FVec Ideal S64x64x4 .f32) (D : FVec Ideal S128x64x4x4 .f32) (o : Nat)
    (hs5 : S64x64x4.Slices ![0, 0, o] S64x64x1) (hsD : S128x64x4x4.Slices ![0, 0, o, 0] S128x64x1x4) (ho : o < 4)
    (p : Fin 128) (c n : Fin 64) (j : Fin 4) :
    T C P5 D o hs5 hsD (ix4 p c n j) = (C (ix2 p n) * P5 (ix3 c n ⟨o, ho⟩)) * D (ix4 p c ⟨o, ho⟩ j) := by
  unfold T
  rw [Cert.KLayout.outer_apply, Cert.KLayout.rowcol_apply, Cert.KLayout.csel_apply P5 o ho, Cert.KLayout.dsel_apply D o ho]

/-- The real accumulation: + cos · D_re, − sin · D_im, position after position. -/
def VR (Cc Cs : FVec Ideal S128x64 .f32) (P5 : FVec Ideal S64x64x4 .f32) (DR DI : FVec Ideal S128x64x4x4 .f32) : FVec Ideal S128x64x64x4 .f32 :=
  (subf (addf (subf (addf (subf (addf (subf (addf (broadcast S128x64x64x4 (Scalar.ofBits (F := Ideal) .f32 0x00000000#32)) (T Cc P5 DR 0 slices_S64x64x4_o0_0_0_S64x64x1 slices_S128x64x4x4_o0_0_0_0_S128x64x1x4)) (T Cs P5 DI 0 slices_S64x64x4_o0_0_0_S64x64x1 slices_S128x64x4x4_o0_0_0_0_S128x64x1x4)) (T Cc P5 DR 1 slices_S64x64x4_o0_0_1_S64x64x1 slices_S128x64x4x4_o0_0_1_0_S128x64x1x4)) (T Cs P5 DI 1 slices_S64x64x4_o0_0_1_S64x64x1 slices_S128x64x4x4_o0_0_1_0_S128x64x1x4)) (T Cc P5 DR 2 slices_S64x64x4_o0_0_2_S64x64x1 slices_S128x64x4x4_o0_0_2_0_S128x64x1x4)) (T Cs P5 DI 2 slices_S64x64x4_o0_0_2_S64x64x1 slices_S128x64x4x4_o0_0_2_0_S128x64x1x4)) (T Cc P5 DR 3 slices_S64x64x4_o0_0_3_S64x64x1 slices_S128x64x4x4_o0_0_3_0_S128x64x1x4)) (T Cs P5 DI 3 slices_S64x64x4_o0_0_3_S64x64x1 slices_S128x64x4x4_o0_0_3_0_S128x64x1x4))

/-- The imaginary accumulation: + cos · D_im, + sin · D_re, position after position. -/
def VI (Cc Cs : FVec Ideal S128x64 .f32) (P5 : FVec Ideal S64x64x4 .f32) (DR DI : FVec Ideal S128x64x4x4 .f32) : FVec Ideal S128x64x64x4 .f32 :=
  (addf (addf (addf (addf (addf (addf (addf (addf (broadcast S128x64x64x4 (Scalar.ofBits (F := Ideal) .f32 0x00000000#32)) (T Cc P5 DI 0 slices_S64x64x4_o0_0_0_S64x64x1 slices_S128x64x4x4_o0_0_0_0_S128x64x1x4)) (T Cs P5 DR 0 slices_S64x64x4_o0_0_0_S64x64x1 slices_S128x64x4x4_o0_0_0_0_S128x64x1x4)) (T Cc P5 DI 1 slices_S64x64x4_o0_0_1_S64x64x1 slices_S128x64x4x4_o0_0_1_0_S128x64x1x4)) (T Cs P5 DR 1 slices_S64x64x4_o0_0_1_S64x64x1 slices_S128x64x4x4_o0_0_1_0_S128x64x1x4)) (T Cc P5 DI 2 slices_S64x64x4_o0_0_2_S64x64x1 slices_S128x64x4x4_o0_0_2_0_S128x64x1x4)) (T Cs P5 DR 2 slices_S64x64x4_o0_0_2_S64x64x1 slices_S128x64x4x4_o0_0_2_0_S128x64x1x4)) (T Cc P5 DI 3 slices_S64x64x4_o0_0_3_S64x64x1 slices_S128x64x4x4_o0_0_3_0_S128x64x1x4)) (T Cs P5 DR 3 slices_S64x64x4_o0_0_3_S64x64x1 slices_S128x64x4x4_o0_0_3_0_S128x64x1x4))

section Block
variable (P0 : FVec Ideal S128x512 .f32) (WA : FVec Ideal S64x512 .f32) (BA : FVec Ideal S1x64 .f32)
variable (WR : FVec Ideal S1024x512 .f32) (BR : FVec Ideal S1x1024 .f32) (WI : FVec Ideal S1024x512 .f32) (BI : FVec Ideal S1x1024 .f32)
variable (P5 : FVec Ideal S64x64x4 .f32)

/-- The block's cosines. -/
theorem cos_apply (p : Fin 128) (n : Fin 64) :
    cos (k0_pay4 (F := Ideal) P0 WA BA) (ix2 p n) = Ideal.cos (theta (row P0 p) (mat WA) (vec1 BA) n) := by
  show FloatOps.cos (k0_pay4 (F := Ideal) P0 WA BA (ix2 p n)) = _
  rw [Cert.KDense.theta_apply]; rfl

/-- The block's sines. -/
theorem sin_apply (p : Fin 128) (n : Fin 64) :
    sin (k0_pay4 (F := Ideal) P0 WA BA) (ix2 p n) = Ideal.sin (theta (row P0 p) (mat WA) (vec1 BA) n) := by
  show FloatOps.sin (k0_pay4 (F := Ideal) P0 WA BA (ix2 p n)) = _
  rw [Cert.KDense.theta_apply]; rfl

/-- The block's real precoders [128, 64, 4, 4]. -/
theorem dRe_apply (p : Fin 128) (c : Fin 64) (k j : Fin 4) :
    shapeCast S128x64x4x4 (k0_pay10 (F := Ideal) P0 WR BR) shapeCasts_S128x1024_S128x64x4x4 (ix4 p c k j)
      = dRe (row P0 p) (mat WR) (vec1 BR) c k j := by
  rw [Cert.KDense.reshape_apply]
  exact Cert.KDense.dense1024_apply P0 WR BR _ _ _ p (dq c k j)

/-- The block's imaginary precoders [128, 64, 4, 4]. -/
theorem dIm_apply (p : Fin 128) (c : Fin 64) (k j : Fin 4) :
    k0_pay12 (F := Ideal) P0 WI BI (ix4 p c k j) = dIm (row P0 p) (mat WI) (vec1 BI) c k j := by
  unfold k0_pay12
  rw [Cert.KDense.reshape_apply]
  exact Cert.KDense.dense1024_apply P0 WI BI _ _ _ p (dq c k j)

/-- The real accumulation at an entry is the real part of the complex product, for real inputs. -/
theorem VR_apply (h0 : ∀ i, IsR (P0 i)) (hA : ∀ i, IsR (WA i)) (hbA : ∀ i, IsR (BA i))
    (hI : ∀ i, IsR (WI i)) (hbI : ∀ i, IsR (BI i)) (h5 : ∀ i, IsR (P5 i))
    (p : Fin 128) (c n : Fin 64) (j : Fin 4) :
    VR (cos (k0_pay4 (F := Ideal) P0 WA BA)) (sin (k0_pay4 (F := Ideal) P0 WA BA)) P5
        (shapeCast S128x64x4x4 (k0_pay10 (F := Ideal) P0 WR BR) shapeCasts_S128x1024_S128x64x4x4) (k0_pay12 (F := Ideal) P0 WI BI) (ix4 p c n j)
      = vRe (row P0 p) (mat WA) (vec1 BA) (mat WR) (vec1 BR) (mat WI) (vec1 BI) (cub P5) c n j := by
  unfold VR
  simp only [subf_apply, addf_apply, broadcast_apply]
  rw [T_apply _ P5 _ 0 _ _ (by decide), T_apply _ P5 _ 0 _ _ (by decide), T_apply _ P5 _ 1 _ _ (by decide), T_apply _ P5 _ 1 _ _ (by decide),
    T_apply _ P5 _ 2 _ _ (by decide), T_apply _ P5 _ 2 _ _ (by decide), T_apply _ P5 _ 3 _ _ (by decide), T_apply _ P5 _ 3 _ _ (by decide)]
  simp only [cos_apply, sin_apply, dRe_apply, dIm_apply]
  show (((((((Ideal.ofBits .f32 0x00000000#32 + _) - _) + _) - _) + _) - _) + _) - _ = _
  rw [Ideal.ofBits_zero_f32]
  exact vRe_fold (row P0 p) (mat WA) (vec1 BA) (mat WR) (vec1 BR) (mat WI) (vec1 BI) (cub P5)
    (fun k => h0 _) (fun n k => hA _) (fun n => hbA _) (fun q k => hI _) (fun q => hbI _) (fun c n k => h5 _) c n j

/-- The imaginary accumulation at an entry is the imaginary part of the complex product. -/
theorem VI_apply (p : Fin 128) (c n : Fin 64) (j : Fin 4) :
    VI (cos (k0_pay4 (F := Ideal) P0 WA BA)) (sin (k0_pay4 (F := Ideal) P0 WA BA)) P5
        (shapeCast S128x64x4x4 (k0_pay10 (F := Ideal) P0 WR BR) shapeCasts_S128x1024_S128x64x4x4) (k0_pay12 (F := Ideal) P0 WI BI) (ix4 p c n j)
      = vIm (row P0 p) (mat WA) (vec1 BA) (mat WR) (vec1 BR) (mat WI) (vec1 BI) (cub P5) c n j := by
  unfold VI
  simp only [addf_apply, broadcast_apply]
  rw [T_apply _ P5 _ 0 _ _ (by decide), T_apply _ P5 _ 0 _ _ (by decide), T_apply _ P5 _ 1 _ _ (by decide), T_apply _ P5 _ 1 _ _ (by decide),
    T_apply _ P5 _ 2 _ _ (by decide), T_apply _ P5 _ 2 _ _ (by decide), T_apply _ P5 _ 3 _ _ (by decide), T_apply _ P5 _ 3 _ _ (by decide)]
  simp only [cos_apply, sin_apply, dRe_apply, dIm_apply]
  show (((((((Ideal.ofBits .f32 0x00000000#32 + _) + _) + _) + _) + _) + _) + _) + _ = _
  rw [Ideal.ofBits_zero_f32]
  exact vIm_fold (row P0 p) (mat WA) (vec1 BA) (mat WR) (vec1 BR) (mat WI) (vec1 BI) (cub P5) c n j

end Block

end Cert.KTerms
end
-- ==== Proof.LibSumLastTwo.lean ====
/-
  A float sum over the LAST TWO axes of a rank-4 array, read at an index as a double sum.

  A reduction with an add body over the axes [2, 3] of an array of extents [B, C, N, J] has a result of extents [B, C];
  its element (p, c) is the sum of the source elements whose index drops to (p, c), that is of the elements
  (p, c, n, j) over every n < N and j < J. The lemmas below say so for the sum of a filtered index set
  (`sum_filter_last2`), for the ideal value of a `vector.multi_reduction <add>` (`reduceAdd_last2`,
  `multiReduction_add_last2`) and for the ideal value of a one-operand `stablehlo.reduce` with an add body
  (`hostReduceAdd_last2`, `host_reduceAdd_last2`), at any extents B, C, N, J; the `…_idx` forms read at an
  arbitrary result index `j` in place of one built from its coordinates.
-/
import Idealize.ShloMosaic.Lib.ValueIdx
import Idealize.ShloMosaic.PureOps.Ideal.Laws

open scoped BigOperators

namespace Cert.LibSumLastTwo

open Idealize.ShloMosaic Idealize.ShloMosaic.ValueIdx

/-! ## A sum over a rank-4 index set as a fourfold sum over the coordinates -/

/-- A rank-4 index set is the product of its four coordinate ranges: an index goes to its coordinates and four
    coordinates go to the index `ix4` builds from them. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun q := ix4 q.1 q.2.1 q.2.2.1 q.2.2.2
  left_inv i := (eq_ix4 i).symm
  right_inv _ := rfl

/-- So a sum over a rank-4 index set is the fourfold sum over the coordinates, outermost axis first. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ## Dropping the last two coordinates -/

/-- Two rank-2 indices built from coordinates are equal exactly when the coordinates are. -/
theorem ix2_eq_iff {B C : Nat} (p' p : Fin B) (c' c : Fin C) :
    (ix2 p' c' = ix2 p c) ↔ (p' = p ∧ c' = c) := by
  constructor
  · intro h
    exact ⟨congrFun h 0, congrFun h 1⟩
  · rintro ⟨rfl, rfl⟩; rfl

/-- The kept axes of a rank-4 shape reduced over its axes 2 and 3 are the axes 0 and 1, in that order, so the
    index (p, c, n, j) with its reduced coordinates dropped is (p, c): for a `vector.multi_reduction`'s drop … -/
theorem drop_ix4 {B C N J : Nat} (h : (⟨4, ![B, C, N, J]⟩ : Shape).Reduces [2, 3] ⟨2, ![B, C]⟩)
    (p : Fin B) (c : Fin C) (n : Fin N) (j : Fin J) :
    h.drop (ix4 p c n j) = ix2 p c := by
  funext b
  apply Fin.ext
  match b with
  | ⟨0, _⟩ => rfl
  | ⟨1, _⟩ => rfl

/-- … and for a `stablehlo.reduce`'s drop, which is the same function. -/
theorem dropTo_ix4 {B C N J : Nat} (h' : (⟨4, ![B, C, N, J]⟩ : Shape).ReducesTo [2, 3] ⟨2, ![B, C]⟩)
    (p : Fin B) (c : Fin C) (n : Fin N) (j : Fin J) :
    h'.drop (ix4 p c n j) = ix2 p c := by
  funext b
  apply Fin.ext
  match b with
  | ⟨0, _⟩ => rfl
  | ⟨1, _⟩ => rfl

/-! ## The sum of what drops to (p, c) -/

/-- For ANY map `drop` from rank-4 indices of extents [B, C, N, J] to rank-2 indices of extents [B, C] that sends
    (p', c', n, j) to (p', c'), the sum of `x` over the indices that drop to (p, c) is the double sum of
    `x (p, c, n, j)` over n and j. Proof: the filtered sum is the sum over every index of `x` or zero; over the four
    coordinates the condition is `p' = p ∧ c' = c`, which does not mention n or j, so the two outer sums each
    collapse to their one term. -/
theorem sum_filter_last2 {M : Type*} [AddCommMonoid M] {B C N J : Nat}
    (drop : (⟨4, ![B, C, N, J]⟩ : Shape).Idx → (⟨2, ![B, C]⟩ : Shape).Idx)
    (hdrop : ∀ (p : Fin B) (c : Fin C) (n : Fin N) (j : Fin J), drop (ix4 p c n j) = ix2 p c)
    (x : (⟨4, ![B, C, N, J]⟩ : Shape).Idx → M) (p : Fin B) (c : Fin C)
    [DecidablePred fun i => drop i = ix2 p c] :
    ∑ i ∈ Finset.univ.filter (fun i => drop i = ix2 p c), x i
      = ∑ n : Fin N, ∑ j : Fin J, x (ix4 p c n j) := by
  rw [Finset.sum_filter, sum_idx4]
  simp only [hdrop]
  have hterm : ∀ (p' : Fin B) (c' : Fin C),
      (∑ n : Fin N, ∑ j : Fin J, if ix2 p' c' = ix2 p c then x (ix4 p' c' n j) else 0)
        = if c' = c then (if p' = p then ∑ n : Fin N, ∑ j : Fin J, x (ix4 p' c' n j) else 0) else 0 := by
    intro p' c'
    by_cases hc : c' = c
    · by_cases hp : p' = p
      · rw [if_pos hc, if_pos hp]
        have : ix2 p' c' = ix2 p c := (ix2_eq_iff p' p c' c).2 ⟨hp, hc⟩
        simp only [if_pos this]
      · rw [if_pos hc, if_neg hp]
        have : ¬ ix2 p' c' = ix2 p c := fun e => hp ((ix2_eq_iff p' p c' c).1 e).1
        simp only [if_neg this, Finset.sum_const_zero]
    · rw [if_neg hc]
      have : ¬ ix2 p' c' = ix2 p c := fun e => hc ((ix2_eq_iff p' p c' c).1 e).2
      simp only [if_neg this, Finset.sum_const_zero]
  simp only [hterm, Finset.sum_ite_eq', Finset.mem_univ, if_true]

/-! ## The two reductions read at (p, c) -/

/-- At the ideal values a `vector.multi_reduction <add>` over the last two axes of an array of extents [B, C, N, J],
    read at (p, c), is the double sum over n < N and j < J of the source at (p, c, n, j). -/
theorem reduceAdd_last2 {B C N J : Nat} (h : (⟨4, ![B, C, N, J]⟩ : Shape).Reduces [2, 3] ⟨2, ![B, C]⟩)
    (x : (⟨4, ![B, C, N, J]⟩ : Shape).Idx → EReal) (p : Fin B) (c : Fin C) :
    Ideal.reduceAdd h x (ValueIdx.ix2 p c) = ∑ n : Fin N, ∑ j : Fin J, x (ValueIdx.ix4 p c n j) := by
  unfold Ideal.reduceAdd
  exact sum_filter_last2 h.drop (drop_ix4 h) x p c

/-- So a float `vector.multi_reduction <add>` over the last two axes, read at `Ideal` and at (p, c), is that double
    sum (the accumulator is the sum's neutral element and does not appear). -/
theorem multiReduction_add_last2 {B C N J : Nat} {φ : FTy} (src : FVec Ideal ⟨4, ![B, C, N, J]⟩ φ)
    (acc : BitVec φ.bits) (h : (⟨4, ![B, C, N, J]⟩ : Shape).Reduces [2, 3] ⟨2, ![B, C]⟩)
    (hφ : FKind.Formats φ) (hacc : acc = FKind.add.neutral φ hφ) (p : Fin B) (c : Fin C) :
    multiReduction .add [2, 3] ⟨2, ![B, C]⟩ src acc h hφ hacc (ValueIdx.ix2 p c)
      = ∑ n : Fin N, ∑ j : Fin J, src (ValueIdx.ix4 p c n j) :=
  reduceAdd_last2 h src p c

/-- The host's one-operand `stablehlo.reduce` with an add body over the last two axes, read at the ideal values and at
    (p, c): the initial value plus the double sum over n < N and j < J of the operand at (p, c, n, j). -/
theorem hostReduceAdd_last2 {B C N J : Nat} (h' : (⟨4, ![B, C, N, J]⟩ : Shape).ReducesTo [2, 3] ⟨2, ![B, C]⟩)
    (x : (⟨4, ![B, C, N, J]⟩ : Shape).Idx → EReal) (init : EReal) (p : Fin B) (c : Fin C) :
    Ideal.hostReduceAdd h' x init (ValueIdx.ix2 p c)
      = init + ∑ n : Fin N, ∑ j : Fin J, x (ValueIdx.ix4 p c n j) := by
  unfold Ideal.hostReduceAdd
  rw [sum_filter_last2 h'.drop (dropTo_ix4 h') x p c]

/-- The same reading of the reduction as a program states it, with the initial value a rank-0 array `v`: at `Ideal`
    and at (p, c) it is `v`'s one element plus the double sum over n < N and j < J of the operand at (p, c, n, j). -/
theorem host_reduceAdd_last2 {B C N J : Nat} {φ : FTy} (x : FVec Ideal ⟨4, ![B, C, N, J]⟩ φ)
    (v : (⟨0, ![]⟩ : Shape).Idx → Ideal φ)
    (h' : (⟨4, ![B, C, N, J]⟩ : Shape).ReducesTo [2, 3] ⟨2, ![B, C]⟩)
    (hS : 0 < (⟨0, ![]⟩ : Shape).numel) (p : Fin B) (c : Fin C) :
    Host.reduceAdd x v h' hS (ValueIdx.ix2 p c)
      = v ValueIdx.ix0 + ∑ n : Fin N, ∑ j : Fin J, x (ValueIdx.ix4 p c n j) := by
  have hv : v (Shape.Idx.first hS) = v ix0 := congrArg v (eq_ix0 _)
  show Ideal.hostReduceAdd h' x (v (Shape.Idx.first hS)) (ix2 p c) = _
  rw [hostReduceAdd_last2, hv]

/-! ## The same four readings at an arbitrary result index `j`, whose coordinates are `j 0` and `j 1` -/

/-- `reduceAdd_last2` at any result index `j`: the double sum of the source at (j 0, j 1, n, k). -/
theorem reduceAdd_last2_idx {B C N J : Nat} (h : (⟨4, ![B, C, N, J]⟩ : Shape).Reduces [2, 3] ⟨2, ![B, C]⟩)
    (x : (⟨4, ![B, C, N, J]⟩ : Shape).Idx → EReal) (j : (⟨2, ![B, C]⟩ : Shape).Idx) :
    Ideal.reduceAdd h x j
      = ∑ n : Fin N, ∑ k : Fin J, x (ValueIdx.ix4 (n0 := B) (n1 := C) (j 0) (j 1) n k) :=
  (congrArg (Ideal.reduceAdd h x) (eq_ix2 j)).trans (reduceAdd_last2 h x (j 0) (j 1))

/-- `multiReduction_add_last2` at any result index `j`. -/
theorem multiReduction_add_last2_idx {B C N J : Nat} {φ : FTy} (src : FVec Ideal ⟨4, ![B, C, N, J]⟩ φ)
    (acc : BitVec φ.bits) (h : (⟨4, ![B, C, N, J]⟩ : Shape).Reduces [2, 3] ⟨2, ![B, C]⟩)
    (hφ : FKind.Formats φ) (hacc : acc = FKind.add.neutral φ hφ) (j : (⟨2, ![B, C]⟩ : Shape).Idx) :
    multiReduction .add [2, 3] ⟨2, ![B, C]⟩ src acc h hφ hacc j
      = ∑ n : Fin N, ∑ k : Fin J, src (ValueIdx.ix4 (n0 := B) (n1 := C) (j 0) (j 1) n k) :=
  reduceAdd_last2_idx h src j

/-- `hostReduceAdd_last2` at any result index `j`. -/
theorem hostReduceAdd_last2_idx {B C N J : Nat}
    (h' : (⟨4, ![B, C, N, J]⟩ : Shape).ReducesTo [2, 3] ⟨2, ![B, C]⟩)
    (x : (⟨4, ![B, C, N, J]⟩ : Shape).Idx → EReal) (init : EReal) (j : (⟨2, ![B, C]⟩ : Shape).Idx) :
    Ideal.hostReduceAdd h' x init j
      = init + ∑ n : Fin N, ∑ k : Fin J, x (ValueIdx.ix4 (n0 := B) (n1 := C) (j 0) (j 1) n k) :=
  (congrArg (Ideal.hostReduceAdd h' x init) (eq_ix2 j)).trans (hostReduceAdd_last2 h' x init (j 0) (j 1))

/-- `host_reduceAdd_last2` at any result index `j`. -/
theorem host_reduceAdd_last2_idx {B C N J : Nat} {φ : FTy} (x : FVec Ideal ⟨4, ![B, C, N, J]⟩ φ)
    (v : (⟨0, ![]⟩ : Shape).Idx → Ideal φ)
    (h' : (⟨4, ![B, C, N, J]⟩ : Shape).ReducesTo [2, 3] ⟨2, ![B, C]⟩)
    (hS : 0 < (⟨0, ![]⟩ : Shape).numel) (j : (⟨2, ![B, C]⟩ : Shape).Idx) :
    Host.reduceAdd x v h' hS j
      = v ValueIdx.ix0 + ∑ n : Fin N, ∑ k : Fin J, x (ValueIdx.ix4 (n0 := B) (n1 := C) (j 0) (j 1) n k) :=
  (congrArg (Host.reduceAdd x v h' hS) (eq_ix2 j)).trans (host_reduceAdd_last2 x v h' hS (j 0) (j 1))

end Cert.LibSumLastTwo
-- ==== Proof.KOut.lean ====
/-
  What the body leaves in each output block, read at an entry.

  Each of the four output blocks is written by ONE store of the whole block, so the block holds that store's value.
  The first two are the diagonal embeddings cos θ[p, n] · [n = n'] and sin θ[p, n] · [n = n'] on [128, 1, 64, 64]. The
  other two are (2 · D) / ‖V‖ on [128, 64, 4, 4], D the real or the imaginary precoders and ‖V‖[p, c] the square root of
  the sum over (n, j) of the squared real and imaginary accumulations: the specification's `outRe` and `outIm` on
  row p, when the block's row, the phase layer, the imaginary precoder layer and the selection set are real.
-/
import proofs.«164868_j87385404605127_1_alg».proof.Proof.KTerms
import proofs.«164868_j87385404605127_1_alg».proof.Proof.LibSumLastTwo
import proofs.«164868_j87385404605127_1_alg».proof.Proof.Gen.KernelIdeal.Frame

set_option maxRecDepth 16384
noncomputable section
namespace Cert.KOut
open Idealize.ShloMosaic Idealize.ShloMosaic.ValueIdx Cert.KernelIdeal Cert.KernelIdeal.Gen Cert.Beam Cert.KTerms

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A [128, 64] array C[p, n] against a [64, 64] array E[n, n'], as [128, 1, 64, 64]. -/
theorem diag_apply (C : FVec Ideal S128x64 .f32) (E : FVec Ideal S64x64 .f32)
    (h1 : S128x64.ShapeCasts S128x64x1) (h2 : S128x64x1.Broadcasts S128x64x64)
    (h3 : S64x64.ShapeCasts S1x64x64) (h4 : S1x64x64.Broadcasts S128x64x64) (h5 : S128x64x64.ShapeCasts S128x1x64x64)
    (p : Fin 128) (u : Fin 1) (n n' : Fin 64) :
    shapeCast S128x1x64x64 (mulf (broadcastTo S128x64x64 (shapeCast S128x64x1 C h1) h2) (broadcastTo S128x64x64 (shapeCast S1x64x64 E h3) h4)) h5 (ix4 p u n n')
      = C (ix2 p n) * E (ix2 n n') := by
  refine (shapeCast_apply _ h5 (ix4 p u n n') (ix3 p n n') ?_).trans ?_
  · rw [Shape.rowMajor_val_three, Shape.rowMajor_val_four]
    show (p.val * 64 + n.val) * 64 + n'.val = ((p.val * 1 + u.val) * 64 + n.val) * 64 + n'.val
    have := u.isLt
    omega
  rw [mulf_apply]
  congr 1
  · refine (broadcastTo_apply _ h2 (ix3 p n n') (ix3 p n 0) (fun a => ?_)).trans ?_
    · match a with
      | ⟨0, _⟩ => rfl
      | ⟨1, _⟩ => rfl
      | ⟨2, _⟩ => rfl
    · refine shapeCast_apply _ h1 (ix3 p n 0) (ix2 p n) ?_
      rw [Shape.rowMajor_val_two, Shape.rowMajor_val_three]
      show p.val * 64 + n.val = (p.val * 64 + n.val) * 1 + 0
      omega
  · refine (broadcastTo_apply _ h4 (ix3 p n n') (ix3 0 n n') (fun a => ?_)).trans ?_
    · match a with
      | ⟨0, _⟩ => rfl
      | ⟨1, _⟩ => rfl
      | ⟨2, _⟩ => rfl
    · refine shapeCast_apply _ h3 (ix3 0 n n') (ix2 n n') ?_
      rw [Shape.rowMajor_val_two, Shape.rowMajor_val_three]
      show n.val * 64 + n'.val = (0 * 64 + n.val) * 64 + n'.val
      omega

/-- (2 · D[p, c, k, j]) / sqrt(N[p, c]) on [128, 64, 4, 4]. -/
theorem scaled_apply (D : FVec Ideal S128x64x4x4 .f32) (N : FVec Ideal S128x64 .f32)
    (h1 : S128x64.ShapeCasts S128x64x1x1) (h2 : S128x64x1x1.Broadcasts S128x64x4x4)
    (p : Fin 128) (c : Fin 64) (k j : Fin 4) :
    divf (mulf (broadcast S128x64x4x4 (Scalar.ofBits (F := Ideal) .f32 0x40000000#32)) D) (broadcastTo S128x64x4x4 (shapeCast S128x64x1x1 (sqrt N) h1) h2) (ix4 p c k j)
      = Ideal.div (two * D (ix4 p c k j)) (Ideal.sqrt (N (ix2 p c))) := by
  rw [divf_apply, mulf_apply, broadcast_apply]
  congr 1
  refine (broadcastTo_apply _ h2 (ix4 p c k j) (ix4 p c 0 0) (fun a => ?_)).trans ?_
  · match a with
    | ⟨0, _⟩ => rfl
    | ⟨1, _⟩ => rfl
    | ⟨2, _⟩ => rfl
    | ⟨3, _⟩ => rfl
  · refine shapeCast_apply _ h1 (ix4 p c 0 0) (ix2 p c) ?_
    rw [Shape.rowMajor_val_two, Shape.rowMajor_val_four]
    show p.val * 64 + c.val = ((p.val * 64 + c.val) * 1 + 0) * 1 + 0
    omega

/-- The squared Frobenius norm [128, 64]: the sum over the last two axes of the squared accumulations. -/
def NN (Cc Cs : FVec Ideal S128x64 .f32) (P5 : FVec Ideal S64x64x4 .f32) (DR DI : FVec Ideal S128x64x4x4 .f32) : FVec Ideal S128x64 .f32 :=
  multiReduction .add [2, 3] S128x64 (addf (mulf (VR Cc Cs P5 DR DI) (VR Cc Cs P5 DR DI)) (mulf (VI Cc Cs P5 DR DI) (VI Cc Cs P5 DR DI))) 0x00000000#32 reduces_S128x64x64x4_S128x64 (.inl rfl) rfl

section Block
variable (x0 : Vec Ideal S128x512 .f32) (x1 : Vec Ideal S64x512 .f32) (x2 : Vec Ideal S1x64 .f32) (x3 : Vec Ideal S1024x512 .f32) (x4 : Vec Ideal S1x1024 .f32) (x5 : Vec Ideal S1024x512 .f32) (x6 : Vec Ideal S1x1024 .f32) (x7 : Vec Ideal S64x64x4 .f32)

/-- The squared norm at (p, c), for real inputs. -/
theorem NN_apply (h0 : ∀ i, IsR (x0 i)) (h1 : ∀ i, IsR (x1 i)) (h2 : ∀ i, IsR (x2 i)) (h5 : ∀ i, IsR (x5 i)) (h6 : ∀ i, IsR (x6 i)) (h7 : ∀ i, IsR (x7 i)) (p : Fin 128) (c : Fin 64) :
    NN (cos (k0_pay4 (F := Ideal) x0 x1 x2)) (sin (k0_pay4 (F := Ideal) x0 x1 x2)) x7 (shapeCast S128x64x4x4 (k0_pay10 (F := Ideal) x0 x3 x4) shapeCasts_S128x1024_S128x64x4x4) (k0_pay12 (F := Ideal) x0 x5 x6) (ix2 p c)
      = ∑ n : Fin 64, ∑ j : Fin 4, vSq (row x0 p) (mat x1) (vec1 x2) (mat x3) (vec1 x4) (mat x5) (vec1 x6) (cub x7) c n j := by
  unfold NN
  refine (Cert.LibSumLastTwo.multiReduction_add_last2 _ _ _ _ _ p c).trans ?_
  refine Finset.sum_congr rfl fun n _ => Finset.sum_congr rfl fun j _ => ?_
  rw [addf_apply, mulf_apply, mulf_apply, VR_apply x0 x1 x2 x3 x4 x5 x6 x7 h0 h1 h2 h5 h6 h7, VI_apply]
  rfl

/-- The first output block holds the real diagonal embedding. -/
theorem out8_apply (p : Fin 128) (u : Fin 1) (n n' : Fin 64) :
    out0_8 (F := Ideal) x0 x1 x2 x3 x4 x5 x6 x7 (ix4 p u n n') = aRe (row x0 p) (mat x1) (vec1 x2) n n' := by
  unfold out0_8
  rw [View.canon_unit_zero hz4]
  simp only [View.ld_unit_zero (S := S128x512) hz2, View.ld_unit_zero (S := S64x512) hz2, View.ld_unit_zero (S := S1x64) hz2, View.ld_unit_zero (S := S1024x512) hz2, View.ld_unit_zero (S := S1x1024) hz2, View.ld_unit_zero (S := S64x64x4) hz3]
  unfold k0_pay8 k0_pay5
  rw [diag_apply, cos_apply, Cert.KDense.eye_apply]
  rfl

/-- The second output block holds the imaginary diagonal embedding. -/
theorem out9_apply (p : Fin 128) (u : Fin 1) (n n' : Fin 64) :
    out0_9 (F := Ideal) x0 x1 x2 x3 x4 x5 x6 x7 (ix4 p u n n') = aIm (row x0 p) (mat x1) (vec1 x2) n n' := by
  unfold out0_9
  rw [View.canon_unit_zero hz4]
  simp only [View.ld_unit_zero (S := S128x512) hz2, View.ld_unit_zero (S := S64x512) hz2, View.ld_unit_zero (S := S1x64) hz2, View.ld_unit_zero (S := S1024x512) hz2, View.ld_unit_zero (S := S1x1024) hz2, View.ld_unit_zero (S := S64x64x4) hz3]
  unfold k0_pay9 k0_pay6
  rw [diag_apply, sin_apply, Cert.KDense.eye_apply]
  rfl

/-- The third output block's one store, as the tree of operations over the loaded blocks. -/
theorem out10_eq :
    out0_10 (F := Ideal) x0 x1 x2 x3 x4 x5 x6 x7
      = divf (mulf (broadcast S128x64x4x4 (Scalar.ofBits (F := Ideal) .f32 0x40000000#32)) (shapeCast S128x64x4x4 (k0_pay10 (F := Ideal) x0 x3 x4) shapeCasts_S128x1024_S128x64x4x4))
          (broadcastTo S128x64x4x4 (shapeCast S128x64x1x1 (sqrt (NN (cos (k0_pay4 (F := Ideal) x0 x1 x2)) (sin (k0_pay4 (F := Ideal) x0 x1 x2)) x7 (shapeCast S128x64x4x4 (k0_pay10 (F := Ideal) x0 x3 x4) shapeCasts_S128x1024_S128x64x4x4) (k0_pay12 (F := Ideal) x0 x5 x6))) shapeCasts_S128x64_S128x64x1x1) broadcasts_S128x64x1x1_S128x64x4x4) := by
  unfold out0_10
  rw [View.canon_unit_zero hz4]
  simp only [View.ld_unit_zero (S := S128x512) hz2, View.ld_unit_zero (S := S64x512) hz2, View.ld_unit_zero (S := S1x64) hz2, View.ld_unit_zero (S := S1024x512) hz2, View.ld_unit_zero (S := S1x1024) hz2, View.ld_unit_zero (S := S64x64x4) hz3]
  rfl

/-- The fourth output block's one store, as the tree of operations over the loaded blocks. -/
theorem out11_eq :
    out0_11 (F := Ideal) x0 x1 x2 x3 x4 x5 x6 x7
      = divf (mulf (broadcast S128x64x4x4 (Scalar.ofBits (F := Ideal) .f32 0x40000000#32)) (k0_pay12 (F := Ideal) x0 x5 x6))
          (broadcastTo S128x64x4x4 (shapeCast S128x64x1x1 (sqrt (NN (cos (k0_pay4 (F := Ideal) x0 x1 x2)) (sin (k0_pay4 (F := Ideal) x0 x1 x2)) x7 (shapeCast S128x64x4x4 (k0_pay10 (F := Ideal) x0 x3 x4) shapeCasts_S128x1024_S128x64x4x4) (k0_pay12 (F := Ideal) x0 x5 x6))) shapeCasts_S128x64_S128x64x1x1) broadcasts_S128x64x1x1_S128x64x4x4) := by
  unfold out0_11
  rw [View.canon_unit_zero hz4]
  simp only [View.ld_unit_zero (S := S128x512) hz2, View.ld_unit_zero (S := S64x512) hz2, View.ld_unit_zero (S := S1x64) hz2, View.ld_unit_zero (S := S1024x512) hz2, View.ld_unit_zero (S := S1x1024) hz2, View.ld_unit_zero (S := S64x64x4) hz3]
  rfl

/-- The third output block holds the rescaled real precoders, for real inputs. -/
theorem out10_apply (h0 : ∀ i, IsR (x0 i)) (h1 : ∀ i, IsR (x1 i)) (h2 : ∀ i, IsR (x2 i)) (h5 : ∀ i, IsR (x5 i)) (h6 : ∀ i, IsR (x6 i)) (h7 : ∀ i, IsR (x7 i)) (p : Fin 128) (c : Fin 64) (k j : Fin 4) :
    out0_10 (F := Ideal) x0 x1 x2 x3 x4 x5 x6 x7 (ix4 p c k j)
      = outRe (row x0 p) (mat x1) (vec1 x2) (mat x3) (vec1 x4) (mat x5) (vec1 x6) (cub x7) two 0 c k j := by
  rw [out10_eq, scaled_apply, dRe_apply, NN_apply x0 x1 x2 x3 x4 x5 x6 x7 h0 h1 h2 h5 h6 h7]
  unfold outRe vF
  rw [zero_add]

/-- The fourth output block holds the rescaled imaginary precoders, for real inputs. -/
theorem out11_apply (h0 : ∀ i, IsR (x0 i)) (h1 : ∀ i, IsR (x1 i)) (h2 : ∀ i, IsR (x2 i)) (h5 : ∀ i, IsR (x5 i)) (h6 : ∀ i, IsR (x6 i)) (h7 : ∀ i, IsR (x7 i)) (p : Fin 128) (c : Fin 64) (k j : Fin 4) :
    out0_11 (F := Ideal) x0 x1 x2 x3 x4 x5 x6 x7 (ix4 p c k j)
      = outIm (row x0 p) (mat x1) (vec1 x2) (mat x3) (vec1 x4) (mat x5) (vec1 x6) (cub x7) two 0 c k j := by
  rw [out11_eq, scaled_apply, dIm_apply, NN_apply x0 x1 x2 x3 x4 x5 x6 x7 h0 h1 h2 h5 h6 h7]
  unfold outIm vF
  rw [zero_add]

end Block

end Cert.KOut
end
-- ==== Proof.KArray.lean ====
/-
  From blocks to arrays. The grid has 8 points; point t stages rows 128 t … 128 t + 127 of `x` (and, whole, the weights,
  the three biases as [1, R] rows, and the selection set) and writes back block t — the same 128 rows — of each of the
  four results. Row p of the block of `x` is row 128 t + p of `x`, so what point t writes back is block t of the
  specification's arrays G8 … G11 of the argument arrays; the 8 blocks tile each result, so after the run the four results
  ARE G8 … G11. The bias rows are reshapes [R] → [1, R] done by the host before the launch.
-/
import proofs.«164868_j87385404605127_1_alg».proof.Proof.KOut
import proofs.«164868_j87385404605127_1_alg».proof.Proof.Gen.KernelIdeal.Value
import Idealize.ShloMosaic.Lib.StableHlo.Run

set_option maxRecDepth 16384
noncomputable section
namespace Cert.KArray
open Idealize.ShloMosaic Idealize.ShloMosaic.TcCoe Idealize.SL.Sem Idealize.ShloMosaic.ValueIdx Cert.KernelIdeal Cert.KernelIdeal.Gen Cert.Beam
open Idealize.ShloMosaic.Pipeline (Dat)

/-! ## One block against the arrays, over variables -/

section Generic
variable (b0 : Vec Ideal S128x512 .f32) (b1 : Vec Ideal S64x512 .f32) (b2 : Vec Ideal S1x64 .f32) (b3 : Vec Ideal S1024x512 .f32) (b4 : Vec Ideal S1x1024 .f32) (b5 : Vec Ideal S1024x512 .f32) (b6 : Vec Ideal S1x1024 .f32) (b7 : Vec Ideal S64x64x4 .f32) (a0 : FVec Ideal S1024x512 .f32) (a1 : FVec Ideal S64x512 .f32) (a2 : FVec Ideal S64 .f32) (a3 : FVec Ideal S1024x512 .f32) (a4 : FVec Ideal S1024 .f32) (a5 : FVec Ideal S1024x512 .f32) (a6 : FVec Ideal S1024 .f32) (a7 : FVec Ideal S64x64x4 .f32)
variable (r : Fin 1024) (p : Fin 128)

theorem blk8 (e0 : ∀ k, b0 (ix2 p k) = a0 (ix2 r k)) (e1 : ∀ i, b1 i = a1 i) (e2 : ∀ n, b2 (ix2 0 n) = a2 (ix1 n)) (e3 : ∀ i, b3 i = a3 i) (e4 : ∀ q, b4 (ix2 0 q) = a4 (ix1 q)) (e5 : ∀ i, b5 i = a5 i) (e6 : ∀ q, b6 (ix2 0 q) = a6 (ix1 q)) (e7 : ∀ i, b7 i = a7 i) (u : Fin 1) (n n' : Fin 64) :
    out0_8 (F := Ideal) b0 b1 b2 b3 b4 b5 b6 b7 (ix4 p u n n') = G8 a0 a1 a2 (ix4 r u n n') := by
  have q1 : b1 = a1 := funext e1
  subst q1
  rw [Cert.KOut.out8_apply]
  unfold G8
  rw [show row b0 p = row a0 r from funext e0, show vec1 b2 = vec a2 from funext e2]

theorem blk9 (e0 : ∀ k, b0 (ix2 p k) = a0 (ix2 r k)) (e1 : ∀ i, b1 i = a1 i) (e2 : ∀ n, b2 (ix2 0 n) = a2 (ix1 n)) (e3 : ∀ i, b3 i = a3 i) (e4 : ∀ q, b4 (ix2 0 q) = a4 (ix1 q)) (e5 : ∀ i, b5 i = a5 i) (e6 : ∀ q, b6 (ix2 0 q) = a6 (ix1 q)) (e7 : ∀ i, b7 i = a7 i) (u : Fin 1) (n n' : Fin 64) :
    out0_9 (F := Ideal) b0 b1 b2 b3 b4 b5 b6 b7 (ix4 p u n n') = G9 a0 a1 a2 (ix4 r u n n') := by
  have q1 : b1 = a1 := funext e1
  subst q1
  rw [Cert.KOut.out9_apply]
  unfold G9
  rw [show row b0 p = row a0 r from funext e0, show vec1 b2 = vec a2 from funext e2]

theorem blk10 (e0 : ∀ k, b0 (ix2 p k) = a0 (ix2 r k)) (e1 : ∀ i, b1 i = a1 i) (e2 : ∀ n, b2 (ix2 0 n) = a2 (ix1 n)) (e3 : ∀ i, b3 i = a3 i) (e4 : ∀ q, b4 (ix2 0 q) = a4 (ix1 q)) (e5 : ∀ i, b5 i = a5 i) (e6 : ∀ q, b6 (ix2 0 q) = a6 (ix1 q)) (e7 : ∀ i, b7 i = a7 i) (h0 : ∀ i, IsR (b0 i)) (h1 : ∀ i, IsR (a1 i)) (h2 : ∀ i, IsR (a2 i)) (h5 : ∀ i, IsR (a5 i)) (h6 : ∀ i, IsR (a6 i)) (h7 : ∀ i, IsR (a7 i)) (c : Fin 64) (k j : Fin 4) :
    out0_10 (F := Ideal) b0 b1 b2 b3 b4 b5 b6 b7 (ix4 p c k j) = G10 a0 a1 a2 a3 a4 a5 a6 a7 (ix4 r c k j) := by
  have q1 : b1 = a1 := funext e1
  have q3 : b3 = a3 := funext e3
  have q5 : b5 = a5 := funext e5
  have q7 : b7 = a7 := funext e7
  subst q1 q3 q5 q7
  have hb2 : ∀ i, IsR (b2 i) := fun i => by
    obtain ⟨u, n, rfl⟩ : ∃ (u : Fin 1) (n : Fin 64), i = ix2 u n := ⟨i 0, i 1, eq_ix2 i⟩
    have hu : u = 0 := Subsingleton.elim _ _
    subst hu
    rw [e2]; exact h2 _
  have hb6 : ∀ i, IsR (b6 i) := fun i => by
    obtain ⟨u, n, rfl⟩ : ∃ (u : Fin 1) (n : Fin 1024), i = ix2 u n := ⟨i 0, i 1, eq_ix2 i⟩
    have hu : u = 0 := Subsingleton.elim _ _
    subst hu
    rw [e6]; exact h6 _
  rw [Cert.KOut.out10_apply b0 b1 b2 b3 b4 b5 b6 b7 h0 h1 hb2 h5 hb6 h7]
  unfold G10
  rw [show row b0 p = row a0 r from funext e0, show vec1 b2 = vec a2 from funext e2,
    show vec1 b4 = vec a4 from funext e4, show vec1 b6 = vec a6 from funext e6]

theorem blk11 (e0 : ∀ k, b0 (ix2 p k) = a0 (ix2 r k)) (e1 : ∀ i, b1 i = a1 i) (e2 : ∀ n, b2 (ix2 0 n) = a2 (ix1 n)) (e3 : ∀ i, b3 i = a3 i) (e4 : ∀ q, b4 (ix2 0 q) = a4 (ix1 q)) (e5 : ∀ i, b5 i = a5 i) (e6 : ∀ q, b6 (ix2 0 q) = a6 (ix1 q)) (e7 : ∀ i, b7 i = a7 i) (h0 : ∀ i, IsR (b0 i)) (h1 : ∀ i, IsR (a1 i)) (h2 : ∀ i, IsR (a2 i)) (h5 : ∀ i, IsR (a5 i)) (h6 : ∀ i, IsR (a6 i)) (h7 : ∀ i, IsR (a7 i)) (c : Fin 64) (k j : Fin 4) :
    out0_11 (F := Ideal) b0 b1 b2 b3 b4 b5 b6 b7 (ix4 p c k j) = G11 a0 a1 a2 a3 a4 a5 a6 a7 (ix4 r c k j) := by
  have q1 : b1 = a1 := funext e1
  have q3 : b3 = a3 := funext e3
  have q5 : b5 = a5 := funext e5
  have q7 : b7 = a7 := funext e7
  subst q1 q3 q5 q7
  have hb2 : ∀ i, IsR (b2 i) := fun i => by
    obtain ⟨u, n, rfl⟩ : ∃ (u : Fin 1) (n : Fin 64), i = ix2 u n := ⟨i 0, i 1, eq_ix2 i⟩
    have hu : u = 0 := Subsingleton.elim _ _
    subst hu
    rw [e2]; exact h2 _
  have hb6 : ∀ i, IsR (b6 i) := fun i => by
    obtain ⟨u, n, rfl⟩ : ∃ (u : Fin 1) (n : Fin 1024), i = ix2 u n := ⟨i 0, i 1, eq_ix2 i⟩
    have hu : u = 0 := Subsingleton.elim _ _
    subst hu
    rw [e6]; exact h6 _
  rw [Cert.KOut.out11_apply b0 b1 b2 b3 b4 b5 b6 b7 h0 h1 hb2 h5 hb6 h7]
  unfold G11
  rw [show row b0 p = row a0 r from funext e0, show vec1 b2 = vec a2 from funext e2,
    show vec1 b4 = vec a4 from funext e4, show vec1 b6 = vec a6 from funext e6]

end Generic

/-! ## The index maps, decided over the 8 points -/

theorem idx0_0 : ∀ t : Fin cfg0.N, win0_0.index t (0 : Fin 2) = t.val := (by decide +kernel : ∀ t : Fin grid0.N, _)
theorem idx0_1 : ∀ t : Fin cfg0.N, win0_0.index t (1 : Fin 2) = 0 := (by decide +kernel : ∀ t : Fin grid0.N, _)
theorem idx8_0 : ∀ t : Fin cfg0.N, win0_8.index t (0 : Fin 4) = t.val := (by decide +kernel : ∀ t : Fin grid0.N, _)
theorem idx8_1 : ∀ t : Fin cfg0.N, win0_8.index t (1 : Fin 4) = 0 := (by decide +kernel : ∀ t : Fin grid0.N, _)
theorem idx8_2 : ∀ t : Fin cfg0.N, win0_8.index t (2 : Fin 4) = 0 := (by decide +kernel : ∀ t : Fin grid0.N, _)
theorem idx8_3 : ∀ t : Fin cfg0.N, win0_8.index t (3 : Fin 4) = 0 := (by decide +kernel : ∀ t : Fin grid0.N, _)
theorem idx9_0 : ∀ t : Fin cfg0.N, win0_9.index t (0 : Fin 4) = t.val := (by decide +kernel : ∀ t : Fin grid0.N, _)
theorem idx9_1 : ∀ t : Fin cfg0.N, win0_9.index t (1 : Fin 4) = 0 := (by decide +kernel : ∀ t : Fin grid0.N, _)
theorem idx9_2 : ∀ t : Fin cfg0.N, win0_9.index t (2 : Fin 4) = 0 := (by decide +kernel : ∀ t : Fin grid0.N, _)
theorem idx9_3 : ∀ t : Fin cfg0.N, win0_9.index t (3 : Fin 4) = 0 := (by decide +kernel : ∀ t : Fin grid0.N, _)
theorem idx10_0 : ∀ t : Fin cfg0.N, win0_10.index t (0 : Fin 4) = t.val := (by decide +kernel : ∀ t : Fin grid0.N, _)
theorem idx10_1 : ∀ t : Fin cfg0.N, win0_10.index t (1 : Fin 4) = 0 := (by decide +kernel : ∀ t : Fin grid0.N, _)
theorem idx10_2 : ∀ t : Fin cfg0.N, win0_10.index t (2 : Fin 4) = 0 := (by decide +kernel : ∀ t : Fin grid0.N, _)
theorem idx10_3 : ∀ t : Fin cfg0.N, win0_10.index t (3 : Fin 4) = 0 := (by decide +kernel : ∀ t : Fin grid0.N, _)
theorem idx11_0 : ∀ t : Fin cfg0.N, win0_11.index t (0 : Fin 4) = t.val := (by decide +kernel : ∀ t : Fin grid0.N, _)
theorem idx11_1 : ∀ t : Fin cfg0.N, win0_11.index t (1 : Fin 4) = 0 := (by decide +kernel : ∀ t : Fin grid0.N, _)
theorem idx11_2 : ∀ t : Fin cfg0.N, win0_11.index t (2 : Fin 4) = 0 := (by decide +kernel : ∀ t : Fin grid0.N, _)
theorem idx11_3 : ∀ t : Fin cfg0.N, win0_11.index t (3 : Fin 4) = 0 := (by decide +kernel : ∀ t : Fin grid0.N, _)

theorem idx1_0 : ∀ t : Fin cfg0.N, win0_1.index t (0 : Fin 2) = 0 := (by decide +kernel : ∀ t : Fin grid0.N, _)
theorem idx1_1 : ∀ t : Fin cfg0.N, win0_1.index t (1 : Fin 2) = 0 := (by decide +kernel : ∀ t : Fin grid0.N, _)
theorem idx2_0 : ∀ t : Fin cfg0.N, win0_2.index t (0 : Fin 2) = 0 := (by decide +kernel : ∀ t : Fin grid0.N, _)
theorem idx2_1 : ∀ t : Fin cfg0.N, win0_2.index t (1 : Fin 2) = 0 := (by decide +kernel : ∀ t : Fin grid0.N, _)
theorem idx3_0 : ∀ t : Fin cfg0.N, win0_3.index t (0 : Fin 2) = 0 := (by decide +kernel : ∀ t : Fin grid0.N, _)
theorem idx3_1 : ∀ t : Fin cfg0.N, win0_3.index t (1 : Fin 2) = 0 := (by decide +kernel : ∀ t : Fin grid0.N, _)
theorem idx4_0 : ∀ t : Fin cfg0.N, win0_4.index t (0 : Fin 2) = 0 := (by decide +kernel : ∀ t : Fin grid0.N, _)
theorem idx4_1 : ∀ t : Fin cfg0.N, win0_4.index t (1 : Fin 2) = 0 := (by decide +kernel : ∀ t : Fin grid0.N, _)
theorem idx5_0 : ∀ t : Fin cfg0.N, win0_5.index t (0 : Fin 2) = 0 := (by decide +kernel : ∀ t : Fin grid0.N, _)
theorem idx5_1 : ∀ t : Fin cfg0.N, win0_5.index t (1 : Fin 2) = 0 := (by decide +kernel : ∀ t : Fin grid0.N, _)
theorem idx6_0 : ∀ t : Fin cfg0.N, win0_6.index t (0 : Fin 2) = 0 := (by decide +kernel : ∀ t : Fin grid0.N, _)
theorem idx6_1 : ∀ t : Fin cfg0.N, win0_6.index t (1 : Fin 2) = 0 := (by decide +kernel : ∀ t : Fin grid0.N, _)

theorem idx7_0 : ∀ t : Fin cfg0.N, win0_7.index t (0 : Fin 3) = 0 := (by decide +kernel : ∀ t : Fin grid0.N, _)
theorem idx7_1 : ∀ t : Fin cfg0.N, win0_7.index t (1 : Fin 3) = 0 := (by decide +kernel : ∀ t : Fin grid0.N, _)
theorem idx7_2 : ∀ t : Fin cfg0.N, win0_7.index t (2 : Fin 3) = 0 := (by decide +kernel : ∀ t : Fin grid0.N, _)

/-- The row of `x` that row p of point t's block is. -/
def rowOf (t : Fin cfg0.N) (p : Fin 128) : Fin 1024 :=
  ⟨t.val * 128 + p.val, by have h := t.isLt; have h8 : cfg0.N = 8 := N_0; have := p.isLt; omega⟩

variable (m : (ℓ : Loc nD τ sig) → Buf (Elt Ideal) ℓ) (ρ : Dev nD → PrngReg)

/-! ## The bias rows: reshapes done by the host before the launch -/

theorem V_v0 (c : Dev nD) : (V m c main_v0 : S1x64.Idx → EReal) = shapeCast S1x64 (m ((c : Thread nD τ).loc main_arg2)) shapeCasts_S64_S1x64 := by
  unfold V; after_results; rfl
theorem V_v1 (c : Dev nD) : (V m c main_v1 : S1x1024.Idx → EReal) = shapeCast S1x1024 (m ((c : Thread nD τ).loc main_arg4)) shapeCasts_S1024_S1x1024 := by
  unfold V; after_results; rfl
theorem V_v2 (c : Dev nD) : (V m c main_v2 : S1x1024.Idx → EReal) = shapeCast S1x1024 (m ((c : Thread nD τ).loc main_arg6)) shapeCasts_S1024_S1x1024 := by
  unfold V; after_results; rfl

/-! ## The input blocks at a point -/

theorem iblk0 (c : Dev nD) (t : Fin cfg0.N) (p : Fin 128) (k : Fin 512) :
    iblk m c 0 t (ix2 p k) = (m ((c : Thread nD τ).loc main_arg0)) (ix2 (rowOf t p) k) := by
  show V m c main_arg0 (((cfg0.win 0).blk t).view.emb (ix2 p k)) = _
  rw [V_main_arg0]
  refine congrArg _ (funext fun a => Fin.ext ?_)
  match a with
  | ⟨0, _⟩ => show win0_0.index t (0 : Fin 2) * 128 + 1 * p.val = t.val * 128 + p.val; rw [idx0_0 t]; omega
  | ⟨1, _⟩ => show win0_0.index t (1 : Fin 2) * 512 + 1 * k.val = k.val; rw [idx0_1 t]; omega

theorem iblk1 (c : Dev nD) (t : Fin cfg0.N) (i : S64x512.Idx) : iblk m c 1 t i = (m ((c : Thread nD τ).loc main_arg1)) i := by
  show V m c main_arg1 (((cfg0.win 1).blk t).view.emb i) = _
  rw [V_main_arg1]
  refine congrArg _ (funext fun a => Fin.ext ?_)
  match a with
    | ⟨0, _⟩ => show win0_1.index t (0 : Fin 2) * 64 + 1 * (i 0).val = (i 0).val; rw [idx1_0 t]; omega
    | ⟨1, _⟩ => show win0_1.index t (1 : Fin 2) * 512 + 1 * (i 1).val = (i 1).val; rw [idx1_1 t]; omega

theorem iblk3 (c : Dev nD) (t : Fin cfg0.N) (i : S1024x512.Idx) : iblk m c 3 t i = (m ((c : Thread nD τ).loc main_arg3)) i := by
  show V m c main_arg3 (((cfg0.win 3).blk t).view.emb i) = _
  rw [V_main_arg3]
  refine congrArg _ (funext fun a => Fin.ext ?_)
  match a with
    | ⟨0, _⟩ => show win0_3.index t (0 : Fin 2) * 1024 + 1 * (i 0).val = (i 0).val; rw [idx3_0 t]; omega
    | ⟨1, _⟩ => show win0_3.index t (1 : Fin 2) * 512 + 1 * (i 1).val = (i 1).val; rw [idx3_1 t]; omega

theorem iblk5 (c : Dev nD) (t : Fin cfg0.N) (i : S1024x512.Idx) : iblk m c 5 t i = (m ((c : Thread nD τ).loc main_arg5)) i := by
  show V m c main_arg5 (((cfg0.win 5).blk t).view.emb i) = _
  rw [V_main_arg5]
  refine congrArg _ (funext fun a => Fin.ext ?_)
  match a with
    | ⟨0, _⟩ => show win0_5.index t (0 : Fin 2) * 1024 + 1 * (i 0).val = (i 0).val; rw [idx5_0 t]; omega
    | ⟨1, _⟩ => show win0_5.index t (1 : Fin 2) * 512 + 1 * (i 1).val = (i 1).val; rw [idx5_1 t]; omega

theorem iblk7 (c : Dev nD) (t : Fin cfg0.N) (i : S64x64x4.Idx) : iblk m c 7 t i = (m ((c : Thread nD τ).loc main_arg7)) i := by
  show V m c main_arg7 (((cfg0.win 7).blk t).view.emb i) = _
  rw [V_main_arg7]
  refine congrArg _ (funext fun a => Fin.ext ?_)
  match a with
    | ⟨0, _⟩ => show win0_7.index t (0 : Fin 3) * 64 + 1 * (i 0).val = (i 0).val; rw [idx7_0 t]; omega
    | ⟨1, _⟩ => show win0_7.index t (1 : Fin 3) * 64 + 1 * (i 1).val = (i 1).val; rw [idx7_1 t]; omega
    | ⟨2, _⟩ => show win0_7.index t (2 : Fin 3) * 4 + 1 * (i 2).val = (i 2).val; rw [idx7_2 t]; omega

theorem iblk2 (c : Dev nD) (t : Fin cfg0.N) (n : Fin 64) : iblk m c 2 t (ix2 0 n) = (m ((c : Thread nD τ).loc main_arg2)) (ix1 n) := by
  show V m c main_v0 (((cfg0.win 2).blk t).view.emb (ix2 0 n)) = _
  have e : ((cfg0.win 2).blk t).view.emb (ix2 (0 : Fin 1) n) = ix2 (0 : Fin 1) n := funext fun a => Fin.ext (by
    match a with
    | ⟨0, _⟩ => show win0_2.index t (0 : Fin 2) * 1 + 1 * 0 = 0; rw [idx2_0 t]
    | ⟨1, _⟩ => show win0_2.index t (1 : Fin 2) * 64 + 1 * n.val = n.val; rw [idx2_1 t]; omega)
  rw [e, V_v0]
  refine shapeCast_apply _ _ (ix2 0 n) (ix1 n) ?_
  rw [Shape.rowMajor_val_one, Shape.rowMajor_val_two]
  show n.val = 0 * 64 + n.val
  omega

theorem iblk4 (c : Dev nD) (t : Fin cfg0.N) (q : Fin 1024) : iblk m c 4 t (ix2 0 q) = (m ((c : Thread nD τ).loc main_arg4)) (ix1 q) := by
  show V m c main_v1 (((cfg0.win 4).blk t).view.emb (ix2 0 q)) = _
  have e : ((cfg0.win 4).blk t).view.emb (ix2 (0 : Fin 1) q) = ix2 (0 : Fin 1) q := funext fun a => Fin.ext (by
    match a with
    | ⟨0, _⟩ => show win0_4.index t (0 : Fin 2) * 1 + 1 * 0 = 0; rw [idx4_0 t]
    | ⟨1, _⟩ => show win0_4.index t (1 : Fin 2) * 1024 + 1 * q.val = q.val; rw [idx4_1 t]; omega)
  rw [e, V_v1]
  refine shapeCast_apply _ _ (ix2 0 q) (ix1 q) ?_
  rw [Shape.rowMajor_val_one, Shape.rowMajor_val_two]
  show q.val = 0 * 1024 + q.val
  omega

theorem iblk6 (c : Dev nD) (t : Fin cfg0.N) (q : Fin 1024) : iblk m c 6 t (ix2 0 q) = (m ((c : Thread nD τ).loc main_arg6)) (ix1 q) := by
  show V m c main_v2 (((cfg0.win 6).blk t).view.emb (ix2 0 q)) = _
  have e : ((cfg0.win 6).blk t).view.emb (ix2 (0 : Fin 1) q) = ix2 (0 : Fin 1) q := funext fun a => Fin.ext (by
    match a with
    | ⟨0, _⟩ => show win0_6.index t (0 : Fin 2) * 1 + 1 * 0 = 0; rw [idx6_0 t]
    | ⟨1, _⟩ => show win0_6.index t (1 : Fin 2) * 1024 + 1 * q.val = q.val; rw [idx6_1 t]; omega)
  rw [e, V_v2]
  refine shapeCast_apply _ _ (ix2 0 q) (ix1 q) ?_
  rw [Shape.rowMajor_val_one, Shape.rowMajor_val_two]
  show q.val = 0 * 1024 + q.val
  omega

/-- Every entry of the block of `x` is an entry of `x`. -/
theorem iblk0_isR (c : Dev nD) (t : Fin cfg0.N) (h : ∀ i, IsR ((m ((c : Thread nD τ).loc main_arg0)) i)) (i : S128x512.Idx) : IsR (iblk m c 0 t i) := by
  show IsR (V m c main_arg0 (((cfg0.win 0).blk t).view.emb i))
  rw [V_main_arg0]; exact h _

/-! ## What each point writes back, the cover, the final arrays -/

theorem emb8 (t : Fin cfg0.N) (p : Fin 128) (u : Fin 1) (n n' : Fin 64) :
    ((cfg0.win 8).blk t).view.emb (ix4 p u n n') = ix4 (rowOf t p) u n n' := funext fun a => Fin.ext (by
  match a with
  | ⟨0, _⟩ => show win0_8.index t (0 : Fin 4) * 128 + 1 * p.val = t.val * 128 + p.val; rw [idx8_0 t]; omega
  | ⟨1, _⟩ => show win0_8.index t (1 : Fin 4) * 1 + 1 * (u).val = (u).val; rw [idx8_1 t]; omega
  | ⟨2, _⟩ => show win0_8.index t (2 : Fin 4) * 64 + 1 * (n).val = (n).val; rw [idx8_2 t]; omega
  | ⟨3, _⟩ => show win0_8.index t (3 : Fin 4) * 64 + 1 * (n').val = (n').val; rw [idx8_3 t]; omega)

/-- What point t writes back to result 0 is block t of the specification's array. -/
theorem flushed8_eq (c : Dev nD) (t : Fin cfg0.N) :
    (dats m 0 c).flushed 8 t = ((cfg0.win 8).blk t).view.read (Elt Ideal) (G8 (m ((c : Thread nD τ).loc main_arg0)) (m ((c : Thread nD τ).loc main_arg1)) (m ((c : Thread nD τ).loc main_arg2))) := by
  rw [Cert.KernelIdeal.Value.flushed8]
  funext y
  obtain ⟨p, u, n, n', rfl⟩ : ∃ (p : Fin 128) (u : Fin 1) (n n' : Fin 64), y = ix4 p u n n' := ⟨y 0, y 1, y 2, y 3, eq_ix4 y⟩
  show out0_8 (F := Ideal) (iblk m c 0 t) (iblk m c 1 t) (iblk m c 2 t) (iblk m c 3 t) (iblk m c 4 t) (iblk m c 5 t) (iblk m c 6 t) (iblk m c 7 t) (ix4 p u n n') = (G8 (m ((c : Thread nD τ).loc main_arg0)) (m ((c : Thread nD τ).loc main_arg1)) (m ((c : Thread nD τ).loc main_arg2))) (((cfg0.win 8).blk t).view.emb (ix4 p u n n'))
  rw [emb8]
  exact blk8 (iblk m c 0 t) (iblk m c 1 t) (iblk m c 2 t) (iblk m c 3 t) (iblk m c 4 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowOf t p) p
    (iblk0 m c t p) (iblk1 m c t) (iblk2 m c t) (iblk3 m c t) (iblk4 m c t) (iblk5 m c t) (iblk6 m c t) (iblk7 m c t) u n n'

theorem mem_blk8 (t : Fin cfg0.N) (i : S1024x1x64x64.Idx) :
    i ∈ ((cfg0.win 8).blk t).view.set ↔ ∀ a : Fin 4, win0_8.index t a * S128x1x64x64.size a ≤ (i a).val ∧ (i a).val < win0_8.index t a * S128x1x64x64.size a + S128x1x64x64.size a := by
  show i ∈ ((View.whole main_v3_0).slice (win0_8.rect t)).set ↔ _
  rw [View.set_slice_whole, Rect.mem_set_unit]
  exact Iff.rfl

/-- The 8 blocks tile result 0: row b lies in block b / 128. -/
theorem cover8 (i : S1024x1x64x64.Idx) : ∃ t : Fin cfg0.N, (cfg0.win 8).flush t = true ∧ i ∈ ((cfg0.win 8).blk t).view.set := by
  have hi0 : (i 0).val < 1024 := (i 0).isLt
  have hi1 : (i 1).val < 1 := (i 1).isLt
  have hi2 : (i 2).val < 64 := (i 2).isLt
  have hi3 : (i 3).val < 64 := (i 3).isLt
  have h8 : cfg0.N = 8 := N_0
  refine ⟨⟨(i 0).val / 128, by omega⟩, flush0_8 _, ?_⟩
  rw [mem_blk8]
  intro a
  match a with
  | ⟨0, _⟩ => show win0_8.index _ (0 : Fin 4) * 128 ≤ (i 0).val ∧ (i 0).val < win0_8.index _ (0 : Fin 4) * 128 + 128; rw [idx8_0]; show (i 0).val / 128 * 128 ≤ (i 0).val ∧ (i 0).val < (i 0).val / 128 * 128 + 128; omega
  | ⟨1, _⟩ => show win0_8.index _ (1 : Fin 4) * 1 ≤ (i 1).val ∧ (i 1).val < win0_8.index _ (1 : Fin 4) * 1 + 1; rw [idx8_1]; omega
  | ⟨2, _⟩ => show win0_8.index _ (2 : Fin 4) * 64 ≤ (i 2).val ∧ (i 2).val < win0_8.index _ (2 : Fin 4) * 64 + 64; rw [idx8_2]; omega
  | ⟨3, _⟩ => show win0_8.index _ (3 : Fin 4) * 64 ≤ (i 3).val ∧ (i 3).val < win0_8.index _ (3 : Fin 4) * 64 + 64; rw [idx8_3]; omega

/-- Result 0 after the run is the specification's array. -/
theorem final8 (c : Dev nD) :
    (dats m 0 c).arrAt 8 cfg0.N = G8 (m ((c : Thread nD τ).loc main_arg0)) (m ((c : Thread nD τ).loc main_arg1)) (m ((c : Thread nD τ).loc main_arg2)) :=
  (dats m 0 c).arrAt_eq_of_cover 8 (G8 (m ((c : Thread nD τ).loc main_arg0)) (m ((c : Thread nD τ).loc main_arg1)) (m ((c : Thread nD τ).loc main_arg2))) (fun t _ => flushed8_eq m c t) cover8

theorem emb9 (t : Fin cfg0.N) (p : Fin 128) (u : Fin 1) (n n' : Fin 64) :
    ((cfg0.win 9).blk t).view.emb (ix4 p u n n') = ix4 (rowOf t p) u n n' := funext fun a => Fin.ext (by
  match a with
  | ⟨0, _⟩ => show win0_9.index t (0 : Fin 4) * 128 + 1 * p.val = t.val * 128 + p.val; rw [idx9_0 t]; omega
  | ⟨1, _⟩ => show win0_9.index t (1 : Fin 4) * 1 + 1 * (u).val = (u).val; rw [idx9_1 t]; omega
  | ⟨2, _⟩ => show win0_9.index t (2 : Fin 4) * 64 + 1 * (n).val = (n).val; rw [idx9_2 t]; omega
  | ⟨3, _⟩ => show win0_9.index t (3 : Fin 4) * 64 + 1 * (n').val = (n').val; rw [idx9_3 t]; omega)

/-- What point t writes back to result 1 is block t of the specification's array. -/
theorem flushed9_eq (c : Dev nD) (t : Fin cfg0.N) :
    (dats m 0 c).flushed 9 t = ((cfg0.win 9).blk t).view.read (Elt Ideal) (G9 (m ((c : Thread nD τ).loc main_arg0)) (m ((c : Thread nD τ).loc main_arg1)) (m ((c : Thread nD τ).loc main_arg2))) := by
  rw [Cert.KernelIdeal.Value.flushed9]
  funext y
  obtain ⟨p, u, n, n', rfl⟩ : ∃ (p : Fin 128) (u : Fin 1) (n n' : Fin 64), y = ix4 p u n n' := ⟨y 0, y 1, y 2, y 3, eq_ix4 y⟩
  show out0_9 (F := Ideal) (iblk m c 0 t) (iblk m c 1 t) (iblk m c 2 t) (iblk m c 3 t) (iblk m c 4 t) (iblk m c 5 t) (iblk m c 6 t) (iblk m c 7 t) (ix4 p u n n') = (G9 (m ((c : Thread nD τ).loc main_arg0)) (m ((c : Thread nD τ).loc main_arg1)) (m ((c : Thread nD τ).loc main_arg2))) (((cfg0.win 9).blk t).view.emb (ix4 p u n n'))
  rw [emb9]
  exact blk9 (iblk m c 0 t) (iblk m c 1 t) (iblk m c 2 t) (iblk m c 3 t) (iblk m c 4 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowOf t p) p
    (iblk0 m c t p) (iblk1 m c t) (iblk2 m c t) (iblk3 m c t) (iblk4 m c t) (iblk5 m c t) (iblk6 m c t) (iblk7 m c t) u n n'

theorem mem_blk9 (t : Fin cfg0.N) (i : S1024x1x64x64.Idx) :
    i ∈ ((cfg0.win 9).blk t).view.set ↔ ∀ a : Fin 4, win0_9.index t a * S128x1x64x64.size a ≤ (i a).val ∧ (i a).val < win0_9.index t a * S128x1x64x64.size a + S128x1x64x64.size a := by
  show i ∈ ((View.whole main_v3_1).slice (win0_9.rect t)).set ↔ _
  rw [View.set_slice_whole, Rect.mem_set_unit]
  exact Iff.rfl

/-- The 8 blocks tile result 1: row b lies in block b / 128. -/
theorem cover9 (i : S1024x1x64x64.Idx) : ∃ t : Fin cfg0.N, (cfg0.win 9).flush t = true ∧ i ∈ ((cfg0.win 9).blk t).view.set := by
  have hi0 : (i 0).val < 1024 := (i 0).isLt
  have hi1 : (i 1).val < 1 := (i 1).isLt
  have hi2 : (i 2).val < 64 := (i 2).isLt
  have hi3 : (i 3).val < 64 := (i 3).isLt
  have h8 : cfg0.N = 8 := N_0
  refine ⟨⟨(i 0).val / 128, by omega⟩, flush0_9 _, ?_⟩
  rw [mem_blk9]
  intro a
  match a with
  | ⟨0, _⟩ => show win0_9.index _ (0 : Fin 4) * 128 ≤ (i 0).val ∧ (i 0).val < win0_9.index _ (0 : Fin 4) * 128 + 128; rw [idx9_0]; show (i 0).val / 128 * 128 ≤ (i 0).val ∧ (i 0).val < (i 0).val / 128 * 128 + 128; omega
  | ⟨1, _⟩ => show win0_9.index _ (1 : Fin 4) * 1 ≤ (i 1).val ∧ (i 1).val < win0_9.index _ (1 : Fin 4) * 1 + 1; rw [idx9_1]; omega
  | ⟨2, _⟩ => show win0_9.index _ (2 : Fin 4) * 64 ≤ (i 2).val ∧ (i 2).val < win0_9.index _ (2 : Fin 4) * 64 + 64; rw [idx9_2]; omega
  | ⟨3, _⟩ => show win0_9.index _ (3 : Fin 4) * 64 ≤ (i 3).val ∧ (i 3).val < win0_9.index _ (3 : Fin 4) * 64 + 64; rw [idx9_3]; omega

/-- Result 1 after the run is the specification's array. -/
theorem final9 (c : Dev nD) :
    (dats m 0 c).arrAt 9 cfg0.N = G9 (m ((c : Thread nD τ).loc main_arg0)) (m ((c : Thread nD τ).loc main_arg1)) (m ((c : Thread nD τ).loc main_arg2)) :=
  (dats m 0 c).arrAt_eq_of_cover 9 (G9 (m ((c : Thread nD τ).loc main_arg0)) (m ((c : Thread nD τ).loc main_arg1)) (m ((c : Thread nD τ).loc main_arg2))) (fun t _ => flushed9_eq m c t) cover9

theorem emb10 (t : Fin cfg0.N) (p : Fin 128) (c' : Fin 64) (k j : Fin 4) :
    ((cfg0.win 10).blk t).view.emb (ix4 p c' k j) = ix4 (rowOf t p) c' k j := funext fun a => Fin.ext (by
  match a with
  | ⟨0, _⟩ => show win0_10.index t (0 : Fin 4) * 128 + 1 * p.val = t.val * 128 + p.val; rw [idx10_0 t]; omega
  | ⟨1, _⟩ => show win0_10.index t (1 : Fin 4) * 64 + 1 * (c').val = (c').val; rw [idx10_1 t]; omega
  | ⟨2, _⟩ => show win0_10.index t (2 : Fin 4) * 4 + 1 * (k).val = (k).val; rw [idx10_2 t]; omega
  | ⟨3, _⟩ => show win0_10.index t (3 : Fin 4) * 4 + 1 * (j).val = (j).val; rw [idx10_3 t]; omega)

/-- What point t writes back to result 2 is block t of the specification's array. -/
theorem flushed10_eq (c : Dev nD) (h0 : ∀ i, IsR ((m ((c : Thread nD τ).loc main_arg0)) i)) (h1 : ∀ i, IsR ((m ((c : Thread nD τ).loc main_arg1)) i)) (h2 : ∀ i, IsR ((m ((c : Thread nD τ).loc main_arg2)) i)) (h5 : ∀ i, IsR ((m ((c : Thread nD τ).loc main_arg5)) i)) (h6 : ∀ i, IsR ((m ((c : Thread nD τ).loc main_arg6)) i)) (h7 : ∀ i, IsR ((m ((c : Thread nD τ).loc main_arg7)) i)) (t : Fin cfg0.N) :
    (dats m 0 c).flushed 10 t = ((cfg0.win 10).blk t).view.read (Elt Ideal) (G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.KernelIdeal.Value.flushed10]
  funext y
  obtain ⟨p, c', k, j, rfl⟩ : ∃ (p : Fin 128) (c' : Fin 64) (k j : Fin 4), y = ix4 p c' k j := ⟨y 0, y 1, y 2, y 3, eq_ix4 y⟩
  show out0_10 (F := Ideal) (iblk m c 0 t) (iblk m c 1 t) (iblk m c 2 t) (iblk m c 3 t) (iblk m c 4 t) (iblk m c 5 t) (iblk m c 6 t) (iblk m c 7 t) (ix4 p c' k j) = (G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (((cfg0.win 10).blk t).view.emb (ix4 p c' k j))
  rw [emb10]
  exact blk10 (iblk m c 0 t) (iblk m c 1 t) (iblk m c 2 t) (iblk m c 3 t) (iblk m c 4 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowOf t p) p
    (iblk0 m c t p) (iblk1 m c t) (iblk2 m c t) (iblk3 m c t) (iblk4 m c t) (iblk5 m c t) (iblk6 m c t) (iblk7 m c t)
    (iblk0_isR m c t h0) h1 h2 h5 h6 h7 c' k j

theorem mem_blk10 (t : Fin cfg0.N) (i : S1024x64x4x4.Idx) :
    i ∈ ((cfg0.win 10).blk t).view.set ↔ ∀ a : Fin 4, win0_10.index t a * S128x64x4x4.size a ≤ (i a).val ∧ (i a).val < win0_10.index t a * S128x64x4x4.size a + S128x64x4x4.size a := by
  show i ∈ ((View.whole main_v3_2).slice (win0_10.rect t)).set ↔ _
  rw [View.set_slice_whole, Rect.mem_set_unit]
  exact Iff.rfl

/-- The 8 blocks tile result 2: row b lies in block b / 128. -/
theorem cover10 (i : S1024x64x4x4.Idx) : ∃ t : Fin cfg0.N, (cfg0.win 10).flush t = true ∧ i ∈ ((cfg0.win 10).blk t).view.set := by
  have hi0 : (i 0).val < 1024 := (i 0).isLt
  have hi1 : (i 1).val < 64 := (i 1).isLt
  have hi2 : (i 2).val < 4 := (i 2).isLt
  have hi3 : (i 3).val < 4 := (i 3).isLt
  have h8 : cfg0.N = 8 := N_0
  refine ⟨⟨(i 0).val / 128, by omega⟩, flush0_10 _, ?_⟩
  rw [mem_blk10]
  intro a
  match a with
  | ⟨0, _⟩ => show win0_10.index _ (0 : Fin 4) * 128 ≤ (i 0).val ∧ (i 0).val < win0_10.index _ (0 : Fin 4) * 128 + 128; rw [idx10_0]; show (i 0).val / 128 * 128 ≤ (i 0).val ∧ (i 0).val < (i 0).val / 128 * 128 + 128; omega
  | ⟨1, _⟩ => show win0_10.index _ (1 : Fin 4) * 64 ≤ (i 1).val ∧ (i 1).val < win0_10.index _ (1 : Fin 4) * 64 + 64; rw [idx10_1]; omega
  | ⟨2, _⟩ => show win0_10.index _ (2 : Fin 4) * 4 ≤ (i 2).val ∧ (i 2).val < win0_10.index _ (2 : Fin 4) * 4 + 4; rw [idx10_2]; omega
  | ⟨3, _⟩ => show win0_10.index _ (3 : Fin 4) * 4 ≤ (i 3).val ∧ (i 3).val < win0_10.index _ (3 : Fin 4) * 4 + 4; rw [idx10_3]; omega

/-- Result 2 after the run is the specification's array. -/
theorem final10 (c : Dev nD) (h0 : ∀ i, IsR ((m ((c : Thread nD τ).loc main_arg0)) i)) (h1 : ∀ i, IsR ((m ((c : Thread nD τ).loc main_arg1)) i)) (h2 : ∀ i, IsR ((m ((c : Thread nD τ).loc main_arg2)) i)) (h5 : ∀ i, IsR ((m ((c : Thread nD τ).loc main_arg5)) i)) (h6 : ∀ i, IsR ((m ((c : Thread nD τ).loc main_arg6)) i)) (h7 : ∀ i, IsR ((m ((c : Thread nD τ).loc main_arg7)) i)) :
    (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 10 (G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed10_eq m c h0 h1 h2 h5 h6 h7 t) cover10

theorem emb11 (t : Fin cfg0.N) (p : Fin 128) (c' : Fin 64) (k j : Fin 4) :
    ((cfg0.win 11).blk t).view.emb (ix4 p c' k j) = ix4 (rowOf t p) c' k j := funext fun a => Fin.ext (by
  match a with
  | ⟨0, _⟩ => show win0_11.index t (0 : Fin 4) * 128 + 1 * p.val = t.val * 128 + p.val; rw [idx11_0 t]; omega
  | ⟨1, _⟩ => show win0_11.index t (1 : Fin 4) * 64 + 1 * (c').val = (c').val; rw [idx11_1 t]; omega
  | ⟨2, _⟩ => show win0_11.index t (2 : Fin 4) * 4 + 1 * (k).val = (k).val; rw [idx11_2 t]; omega
  | ⟨3, _⟩ => show win0_11.index t (3 : Fin 4) * 4 + 1 * (j).val = (j).val; rw [idx11_3 t]; omega)

/-- What point t writes back to result 3 is block t of the specification's array. -/
theorem flushed11_eq (c : Dev nD) (h0 : ∀ i, IsR ((m ((c : Thread nD τ).loc main_arg0)) i)) (h1 : ∀ i, IsR ((m ((c : Thread nD τ).loc main_arg1)) i)) (h2 : ∀ i, IsR ((m ((c : Thread nD τ).loc main_arg2)) i)) (h5 : ∀ i, IsR ((m ((c : Thread nD τ).loc main_arg5)) i)) (h6 : ∀ i, IsR ((m ((c : Thread nD τ).loc main_arg6)) i)) (h7 : ∀ i, IsR ((m ((c : Thread nD τ).loc main_arg7)) i)) (t : Fin cfg0.N) :
    (dats m 0 c).flushed 11 t = ((cfg0.win 11).blk t).view.read (Elt Ideal) (G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.KernelIdeal.Value.flushed11]
  funext y
  obtain ⟨p, c', k, j, rfl⟩ : ∃ (p : Fin 128) (c' : Fin 64) (k j : Fin 4), y = ix4 p c' k j := ⟨y 0, y 1, y 2, y 3, eq_ix4 y⟩
  show out0_11 (F := Ideal) (iblk m c 0 t) (iblk m c 1 t) (iblk m c 2 t) (iblk m c 3 t) (iblk m c 4 t) (iblk m c 5 t) (iblk m c 6 t) (iblk m c 7 t) (ix4 p c' k j) = (G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (((cfg0.win 11).blk t).view.emb (ix4 p c' k j))
  rw [emb11]
  exact blk11 (iblk m c 0 t) (iblk m c 1 t) (iblk m c 2 t) (iblk m c 3 t) (iblk m c 4 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowOf t p) p
    (iblk0 m c t p) (iblk1 m c t) (iblk2 m c t) (iblk3 m c t) (iblk4 m c t) (iblk5 m c t) (iblk6 m c t) (iblk7 m c t)
    (iblk0_isR m c t h0) h1 h2 h5 h6 h7 c' k j

theorem mem_blk11 (t : Fin cfg0.N) (i : S1024x64x4x4.Idx) :
    i ∈ ((cfg0.win 11).blk t).view.set ↔ ∀ a : Fin 4, win0_11.index t a * S128x64x4x4.size a ≤ (i a).val ∧ (i a).val < win0_11.index t a * S128x64x4x4.size a + S128x64x4x4.size a := by
  show i ∈ ((View.whole main_v3_3).slice (win0_11.rect t)).set ↔ _
  rw [View.set_slice_whole, Rect.mem_set_unit]
  exact Iff.rfl

/-- The 8 blocks tile result 3: row b lies in block b / 128. -/
theorem cover11 (i : S1024x64x4x4.Idx) : ∃ t : Fin cfg0.N, (cfg0.win 11).flush t = true ∧ i ∈ ((cfg0.win 11).blk t).view.set := by
  have hi0 : (i 0).val < 1024 := (i 0).isLt
  have hi1 : (i 1).val < 64 := (i 1).isLt
  have hi2 : (i 2).val < 4 := (i 2).isLt
  have hi3 : (i 3).val < 4 := (i 3).isLt
  have h8 : cfg0.N = 8 := N_0
  refine ⟨⟨(i 0).val / 128, by omega⟩, flush0_11 _, ?_⟩
  rw [mem_blk11]
  intro a
  match a with
  | ⟨0, _⟩ => show win0_11.index _ (0 : Fin 4) * 128 ≤ (i 0).val ∧ (i 0).val < win0_11.index _ (0 : Fin 4) * 128 + 128; rw [idx11_0]; show (i 0).val / 128 * 128 ≤ (i 0).val ∧ (i 0).val < (i 0).val / 128 * 128 + 128; omega
  | ⟨1, _⟩ => show win0_11.index _ (1 : Fin 4) * 64 ≤ (i 1).val ∧ (i 1).val < win0_11.index _ (1 : Fin 4) * 64 + 64; rw [idx11_1]; omega
  | ⟨2, _⟩ => show win0_11.index _ (2 : Fin 4) * 4 ≤ (i 2).val ∧ (i 2).val < win0_11.index _ (2 : Fin 4) * 4 + 4; rw [idx11_2]; omega
  | ⟨3, _⟩ => show win0_11.index _ (3 : Fin 4) * 4 ≤ (i 3).val ∧ (i 3).val < win0_11.index _ (3 : Fin 4) * 4 + 4; rw [idx11_3]; omega

/-- Result 3 after the run is the specification's array. -/
theorem final11 (c : Dev nD) (h0 : ∀ i, IsR ((m ((c : Thread nD τ).loc main_arg0)) i)) (h1 : ∀ i, IsR ((m ((c : Thread nD τ).loc main_arg1)) i)) (h2 : ∀ i, IsR ((m ((c : Thread nD τ).loc main_arg2)) i)) (h5 : ∀ i, IsR ((m ((c : Thread nD τ).loc main_arg5)) i)) (h6 : ∀ i, IsR ((m ((c : Thread nD τ).loc main_arg6)) i)) (h7 : ∀ i, IsR ((m ((c : Thread nD τ).loc main_arg7)) i)) :
    (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 11 (G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed11_eq m c h0 h1 h2 h5 h6 h7 t) cover11

/-! ## The run, read -/

/-- The kernel's run with each result array at the specification's function of the arguments (the arguments real on
    every core), the arguments unchanged. -/
theorem run (hre : ∀ c : Dev nD, (∀ i, IsR ((m ((c : Thread nD τ).loc main_arg0)) i)) ∧ (∀ i, IsR ((m ((c : Thread nD τ).loc main_arg1)) i)) ∧ (∀ i, IsR ((m ((c : Thread nD τ).loc main_arg2)) i)) ∧ (∀ i, IsR ((m ((c : Thread nD τ).loc main_arg5)) i)) ∧ (∀ i, IsR ((m ((c : Thread nD τ).loc main_arg6)) i)) ∧ (∀ i, IsR ((m ((c : Thread nD τ).loc main_arg7)) i))) :
    θ_run defs (onTc (τ := τ) (main (F := Ideal))) ⟨m, fun _ => 0, ρ⟩ fun r => ∀ c : Dev nD,
      r.2.mem ((c : Thread nD τ).loc main_v3_0) = G8 (m ((c : Thread nD τ).loc main_arg0)) (m ((c : Thread nD τ).loc main_arg1)) (m ((c : Thread nD τ).loc main_arg2))
      ∧ r.2.mem ((c : Thread nD τ).loc main_v3_1) = G9 (m ((c : Thread nD τ).loc main_arg0)) (m ((c : Thread nD τ).loc main_arg1)) (m ((c : Thread nD τ).loc main_arg2))
      ∧ r.2.mem ((c : Thread nD τ).loc main_v3_2) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v3_3) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => by
    obtain ⟨h0, h1, h2, h5, h6, h7⟩ := hre c
    exact ⟨(h c).1.trans (final8 m c), (h c).2.1.trans (final9 m c), (h c).2.2.1.trans (final10 m c h0 h1 h2 h5 h6 h7),
      (h c).2.2.2.1.trans (final11 m c h0 h1 h2 h5 h6 h7), (h c).2.2.2.2⟩)
    (Cert.KernelIdeal.Value.run_blocks m ρ)

end Cert.KArray
end
-- ==== Proof.RefIsSpec.lean ====
/-
  The reference program's four float results are the specification's arrays, for all argument arrays.
  Each lemma reads one stage of the reference at an index with explicit coordinates: the dense layers as sums over
  the 512 features, the identity matrix from the two counters, the reshape of a row of 1024 to 64 × 4 × 4 at the flat
  position 16·c + 4·k + j, the four batched products as sums over k, the squared norm as the sum over (n, j), and the
  final rescaling.
-/
import proofs.«164868_j87385404605127_1_alg».proof.Proof.Gen.ReferenceIdeal.Read
import proofs.«164868_j87385404605127_1_alg».proof.Proof.SpecAt
import proofs.«164868_j87385404605127_1_alg».proof.Proof.LibSumLastTwo

noncomputable section

namespace Cert.RefIsSpec

open Cert.ReferenceIdeal Cert.ReferenceIdeal.Gen Cert.ReferenceIdeal.Read Idealize.ShloMosaic Idealize.ShloMosaic.ValueIdx Cert.Beam

/-- The phase: the dense layer's sum over the 512 features plus the bias, at row b and antenna n. -/
theorem theta_at (x0 : (⟨S1024x512, .f32⟩ : BufTy).Contents (Elt Ideal)) (x1 : (⟨S64x512, .f32⟩ : BufTy).Contents (Elt Ideal))
    (x2 : (⟨S64, .f32⟩ : BufTy).Contents (Elt Ideal)) (b : Fin 1024) (n : Fin 64) :
    val_main_v4 (F := Ideal) x0 x1 x2 (ix2 b n) = theta (row x0 b) (mat x1) (vec x2) n := by
  rw [val_main_v4_apply, val_main_v1_apply, val_main_v3_apply, val_main_v2_apply]
  have e2 : idx_main_v2 (idx_main_v3 (ix2 b n)) = ix1 n := funext fun a => Fin.ext (by match a with | ⟨0, _⟩ => rfl)
  have el : ∀ k : Fin 512, lidx_main_v1 (ix2 b n) k = ix2 b k := fun k => funext fun a => Fin.ext (by match a with | ⟨0, _⟩ => rfl | ⟨1, _⟩ => rfl)
  have er : ∀ k : Fin 512, idx_main_v0 (ridx_main_v1 (ix2 b n) k) = ix2 n k := fun k => funext fun a => Fin.ext (by match a with | ⟨0, _⟩ => rfl | ⟨1, _⟩ => rfl)
  rw [e2]
  unfold theta lin row mat vec
  refine congrArg₂ (· + ·) (Finset.sum_congr rfl fun k _ => ?_) rfl
  rw [val_main_v0_apply, el, er]

/-- The identity matrix's entry: the comparison of the two counters, read as a number. -/
theorem eye_scalar (n n' : Fin 64) :
    FloatOps.uitofp (F := Ideal) .f32 (IntOp.cmpi .eq (IntOp.addi (BitVec.ofNat 32 n.val) 0#32) (BitVec.ofNat 32 n'.val)) = eye n n' := by
  show (((BitVec.ofBool (BitVec.ofNat 32 n.val + 0#32 == BitVec.ofNat 32 n'.val)).toNat : ℝ) : EReal) = if n = n' then 1 else 0
  rw [BitVec.add_zero]
  by_cases h : n = n'
  · subst h
    rw [if_pos rfl, beq_self_eq_true]
    simp
  · have hne : BitVec.ofNat 32 n.val ≠ BitVec.ofNat 32 n'.val := by
      intro he
      apply h; apply Fin.ext
      have h3 := congrArg BitVec.toNat he
      simp only [BitVec.toNat_ofNat] at h3
      have h1 := n.isLt; have h2 := n'.isLt
      omega
    rw [if_neg h, beq_false_of_ne hne]
    simp

theorem eye_at (n n' : Fin 64) : val_main_v12 (F := Ideal) (ix2 n n') = eye n n' := by
  rw [val_main_v12_apply, val_main_v11_apply, val_main_v10_apply, val_main_v7_apply, val_main_v9_apply, val_main_c_apply, val_main_v8_apply]
  exact eye_scalar n n'

/-- cos θ at row b, antenna n. -/
theorem cos_at (x0 : (⟨S1024x512, .f32⟩ : BufTy).Contents (Elt Ideal)) (x1 : (⟨S64x512, .f32⟩ : BufTy).Contents (Elt Ideal))
    (x2 : (⟨S64, .f32⟩ : BufTy).Contents (Elt Ideal)) (b : Fin 1024) (n : Fin 64) :
    val_main_v5 (F := Ideal) x0 x1 x2 (ix2 b n) = Ideal.cos (theta (row x0 b) (mat x1) (vec x2) n) := by
  rw [val_main_v5_apply, theta_at]; rfl

/-- sin θ at row b, antenna n. -/
theorem sin_at (x0 : (⟨S1024x512, .f32⟩ : BufTy).Contents (Elt Ideal)) (x1 : (⟨S64x512, .f32⟩ : BufTy).Contents (Elt Ideal))
    (x2 : (⟨S64, .f32⟩ : BufTy).Contents (Elt Ideal)) (b : Fin 1024) (n : Fin 64) :
    val_main_v6 (F := Ideal) x0 x1 x2 (ix2 b n) = Ideal.sin (theta (row x0 b) (mat x1) (vec x2) n) := by
  rw [val_main_v6_apply, theta_at]; rfl

/-- The real diagonal embedding before its unit axis is inserted. -/
theorem v17_at (x0 : (⟨S1024x512, .f32⟩ : BufTy).Contents (Elt Ideal)) (x1 : (⟨S64x512, .f32⟩ : BufTy).Contents (Elt Ideal))
    (x2 : (⟨S64, .f32⟩ : BufTy).Contents (Elt Ideal)) (b : Fin 1024) (n n' : Fin 64) :
    val_main_v17 (F := Ideal) x0 x1 x2 (ix3 b n n') = aRe (row x0 b) (mat x1) (vec x2) n n' := by
  rw [val_main_v17_apply, val_main_v15_apply, val_main_v13_apply, val_main_v16_apply, val_main_v14_apply]
  have e1 : idx_main_v13 (idx_main_v15 (ix3 b n n')) = ix2 b n := funext fun a => Fin.ext (by match a with | ⟨0, _⟩ => rfl | ⟨1, _⟩ => rfl)
  have e2 : idx_main_v14 (idx_main_v16 (ix3 b n n')) = ix2 n n' := funext fun a => Fin.ext (by match a with | ⟨0, _⟩ => rfl | ⟨1, _⟩ => rfl)
  rw [e1, e2, cos_at, eye_at]; rfl

/-- The imaginary diagonal embedding before its unit axis is inserted. -/
theorem v23_at (x0 : (⟨S1024x512, .f32⟩ : BufTy).Contents (Elt Ideal)) (x1 : (⟨S64x512, .f32⟩ : BufTy).Contents (Elt Ideal))
    (x2 : (⟨S64, .f32⟩ : BufTy).Contents (Elt Ideal)) (b : Fin 1024) (n n' : Fin 64) :
    val_main_v23 (F := Ideal) x0 x1 x2 (ix3 b n n') = aIm (row x0 b) (mat x1) (vec x2) n n' := by
  rw [val_main_v23_apply, val_main_v21_apply, val_main_v19_apply, val_main_v22_apply, val_main_v20_apply]
  have e1 : idx_main_v19 (idx_main_v21 (ix3 b n n')) = ix2 b n := funext fun a => Fin.ext (by match a with | ⟨0, _⟩ => rfl | ⟨1, _⟩ => rfl)
  have e2 : idx_main_v20 (idx_main_v22 (ix3 b n n')) = ix2 n n' := funext fun a => Fin.ext (by match a with | ⟨0, _⟩ => rfl | ⟨1, _⟩ => rfl)
  rw [e1, e2, sin_at, eye_at]; rfl

/-- The reference's first result is the real diagonal embedding. -/
theorem ref_v18 (x0 : (⟨S1024x512, .f32⟩ : BufTy).Contents (Elt Ideal)) (x1 : (⟨S64x512, .f32⟩ : BufTy).Contents (Elt Ideal))
    (x2 : (⟨S64, .f32⟩ : BufTy).Contents (Elt Ideal)) :
    val_main_v18 (F := Ideal) x0 x1 x2 = G8 x0 x1 x2 := by
  funext i
  obtain ⟨b, u, n, n', rfl⟩ : ∃ (b : Fin 1024) (u : Fin 1) (n n' : Fin 64), i = ix4 b u n n' := ⟨i 0, i 1, i 2, i 3, eq_ix4 i⟩
  rw [val_main_v18_apply]
  have e : idx_main_v18 (ix4 b u n n') = ix3 b n n' := funext fun a => Fin.ext (by match a with | ⟨0, _⟩ => rfl | ⟨1, _⟩ => rfl | ⟨2, _⟩ => rfl)
  rw [e, v17_at]; rfl

/-- The reference's second result is the imaginary diagonal embedding. -/
theorem ref_v24 (x0 : (⟨S1024x512, .f32⟩ : BufTy).Contents (Elt Ideal)) (x1 : (⟨S64x512, .f32⟩ : BufTy).Contents (Elt Ideal))
    (x2 : (⟨S64, .f32⟩ : BufTy).Contents (Elt Ideal)) :
    val_main_v24 (F := Ideal) x0 x1 x2 = G9 x0 x1 x2 := by
  funext i
  obtain ⟨b, u, n, n', rfl⟩ : ∃ (b : Fin 1024) (u : Fin 1) (n n' : Fin 64), i = ix4 b u n n' := ⟨i 0, i 1, i 2, i 3, eq_ix4 i⟩
  rw [val_main_v24_apply]
  have e : idx_main_v24 (ix4 b u n n') = ix3 b n n' := funext fun a => Fin.ext (by match a with | ⟨0, _⟩ => rfl | ⟨1, _⟩ => rfl | ⟨2, _⟩ => rfl)
  rw [e, v23_at]; rfl

/-- The real precoder's dense layer at row b and flat position q. -/
theorem v29_at (x0 : (⟨S1024x512, .f32⟩ : BufTy).Contents (Elt Ideal)) (x3 : (⟨S1024x512, .f32⟩ : BufTy).Contents (Elt Ideal)) (x4 : (⟨S1024, .f32⟩ : BufTy).Contents (Elt Ideal)) (b : Fin 1024) (q : Fin 1024) :
    val_main_v29 (F := Ideal) x0 x3 x4 (ix2 b q) = lin (row x0 b) (mat x3 q) (vec x4 q) := by
  rw [val_main_v29_apply, val_main_v26_apply, val_main_v28_apply, val_main_v27_apply]
  have e2 : idx_main_v27 (idx_main_v28 (ix2 b q)) = ix1 q := funext fun a => Fin.ext (by match a with | ⟨0, _⟩ => rfl)
  have el : ∀ k : Fin 512, lidx_main_v26 (ix2 b q) k = ix2 b k := fun k => funext fun a => Fin.ext (by match a with | ⟨0, _⟩ => rfl | ⟨1, _⟩ => rfl)
  have er : ∀ k : Fin 512, idx_main_v25 (ridx_main_v26 (ix2 b q) k) = ix2 q k := fun k => funext fun a => Fin.ext (by match a with | ⟨0, _⟩ => rfl | ⟨1, _⟩ => rfl)
  rw [e2]
  unfold lin row mat vec
  refine congrArg₂ (· + ·) (Finset.sum_congr rfl fun k _ => ?_) rfl
  rw [val_main_v25_apply, el, er]

/-- The imaginary precoder's dense layer at row b and flat position q. -/
theorem v35_at (x0 : (⟨S1024x512, .f32⟩ : BufTy).Contents (Elt Ideal)) (x5 : (⟨S1024x512, .f32⟩ : BufTy).Contents (Elt Ideal)) (x6 : (⟨S1024, .f32⟩ : BufTy).Contents (Elt Ideal)) (b : Fin 1024) (q : Fin 1024) :
    val_main_v35 (F := Ideal) x0 x5 x6 (ix2 b q) = lin (row x0 b) (mat x5 q) (vec x6 q) := by
  rw [val_main_v35_apply, val_main_v32_apply, val_main_v34_apply, val_main_v33_apply]
  have e2 : idx_main_v33 (idx_main_v34 (ix2 b q)) = ix1 q := funext fun a => Fin.ext (by match a with | ⟨0, _⟩ => rfl)
  have el : ∀ k : Fin 512, lidx_main_v32 (ix2 b q) k = ix2 b k := fun k => funext fun a => Fin.ext (by match a with | ⟨0, _⟩ => rfl | ⟨1, _⟩ => rfl)
  have er : ∀ k : Fin 512, idx_main_v31 (ridx_main_v32 (ix2 b q) k) = ix2 q k := fun k => funext fun a => Fin.ext (by match a with | ⟨0, _⟩ => rfl | ⟨1, _⟩ => rfl)
  rw [e2]
  unfold lin row mat vec
  refine congrArg₂ (· + ·) (Finset.sum_congr rfl fun k _ => ?_) rfl
  rw [val_main_v31_apply, el, er]

/-- The real precoder entry (c, k, j): the reshape reads flat position 16·c + 4·k + j. -/
theorem v30_at (x0 : (⟨S1024x512, .f32⟩ : BufTy).Contents (Elt Ideal)) (x3 : (⟨S1024x512, .f32⟩ : BufTy).Contents (Elt Ideal)) (x4 : (⟨S1024, .f32⟩ : BufTy).Contents (Elt Ideal)) (b : Fin 1024) (c : Fin 64) (k j : Fin 4) :
    val_main_v30 (F := Ideal) x0 x3 x4 (ix4 b c k j) = dRe (row x0 b) (mat x3) (vec x4) c k j := by
  rw [val_main_v30_apply]
  have e : idx_main_v30 (ix4 b c k j) = ix2 b (dq c k j) := funext fun a => Fin.ext (by
    have hb := b.isLt; have hc := c.isLt; have hk := k.isLt; have hj := j.isLt
    match a with
    | ⟨0, _⟩ =>
      show (((b.val * 64 + c.val) * 4 + k.val) * 4 + j.val) / 1024 = b.val
      omega
    | ⟨1, _⟩ =>
      show (((b.val * 64 + c.val) * 4 + k.val) * 4 + j.val) % 1024 = c.val * 16 + k.val * 4 + j.val
      omega)
  rw [e, v29_at]; rfl

/-- The imaginary precoder entry (c, k, j). -/
theorem v36_at (x0 : (⟨S1024x512, .f32⟩ : BufTy).Contents (Elt Ideal)) (x5 : (⟨S1024x512, .f32⟩ : BufTy).Contents (Elt Ideal)) (x6 : (⟨S1024, .f32⟩ : BufTy).Contents (Elt Ideal)) (b : Fin 1024) (c : Fin 64) (k j : Fin 4) :
    val_main_v36 (F := Ideal) x0 x5 x6 (ix4 b c k j) = dIm (row x0 b) (mat x5) (vec x6) c k j := by
  rw [val_main_v36_apply]
  have e : idx_main_v36 (ix4 b c k j) = ix2 b (dq c k j) := funext fun a => Fin.ext (by
    have hb := b.isLt; have hc := c.isLt; have hk := k.isLt; have hj := j.isLt
    match a with
    | ⟨0, _⟩ =>
      show (((b.val * 64 + c.val) * 4 + k.val) * 4 + j.val) / 1024 = b.val
      omega
    | ⟨1, _⟩ =>
      show (((b.val * 64 + c.val) * 4 + k.val) * 4 + j.val) % 1024 = c.val * 16 + k.val * 4 + j.val
      omega)
  rw [e, v35_at]; rfl

/-- Row n of cos θ · C c, entry k. -/
theorem v41_at (x0 : (⟨S1024x512, .f32⟩ : BufTy).Contents (Elt Ideal)) (x1 : (⟨S64x512, .f32⟩ : BufTy).Contents (Elt Ideal))
    (x2 : (⟨S64, .f32⟩ : BufTy).Contents (Elt Ideal)) (x7 : (⟨S64x64x4, .f32⟩ : BufTy).Contents (Elt Ideal)) (b : Fin 1024) (c n : Fin 64) (k : Fin 4) :
    val_main_v41 (F := Ideal) x0 x1 x2 x7 (ix4 b c n k) = arc (row x0 b) (mat x1) (vec x2) (cub x7) c n k := by
  rw [val_main_v41_apply, val_main_v39_apply, val_main_v37_apply, val_main_v40_apply, val_main_v38_apply]
  have e1 : idx_main_v37 (idx_main_v39 (ix4 b c n k)) = ix2 b n := funext fun a => Fin.ext (by match a with | ⟨0, _⟩ => rfl | ⟨1, _⟩ => rfl)
  have e2 : idx_main_v38 (idx_main_v40 (ix4 b c n k)) = ix3 c n k := funext fun a => Fin.ext (by match a with | ⟨0, _⟩ => rfl | ⟨1, _⟩ => rfl | ⟨2, _⟩ => rfl)
  rw [e1, e2, cos_at]; rfl

/-- Row n of sin θ · C c, entry k. -/
theorem v46_at (x0 : (⟨S1024x512, .f32⟩ : BufTy).Contents (Elt Ideal)) (x1 : (⟨S64x512, .f32⟩ : BufTy).Contents (Elt Ideal))
    (x2 : (⟨S64, .f32⟩ : BufTy).Contents (Elt Ideal)) (x7 : (⟨S64x64x4, .f32⟩ : BufTy).Contents (Elt Ideal)) (b : Fin 1024) (c n : Fin 64) (k : Fin 4) :
    val_main_v46 (F := Ideal) x0 x1 x2 x7 (ix4 b c n k) = aic (row x0 b) (mat x1) (vec x2) (cub x7) c n k := by
  rw [val_main_v46_apply, val_main_v44_apply, val_main_v42_apply, val_main_v45_apply, val_main_v43_apply]
  have e1 : idx_main_v42 (idx_main_v44 (ix4 b c n k)) = ix2 b n := funext fun a => Fin.ext (by match a with | ⟨0, _⟩ => rfl | ⟨1, _⟩ => rfl)
  have e2 : idx_main_v43 (idx_main_v45 (ix4 b c n k)) = ix3 c n k := funext fun a => Fin.ext (by match a with | ⟨0, _⟩ => rfl | ⟨1, _⟩ => rfl | ⟨2, _⟩ => rfl)
  rw [e1, e2, sin_at]; rfl

/-- (cos θ · C c) · D_re at (n, j). -/
theorem v47_at (x0 : (⟨S1024x512, .f32⟩ : BufTy).Contents (Elt Ideal)) (x1 : (⟨S64x512, .f32⟩ : BufTy).Contents (Elt Ideal))
    (x2 : (⟨S64, .f32⟩ : BufTy).Contents (Elt Ideal)) (x3 : (⟨S1024x512, .f32⟩ : BufTy).Contents (Elt Ideal)) (x4 : (⟨S1024, .f32⟩ : BufTy).Contents (Elt Ideal)) (x7 : (⟨S64x64x4, .f32⟩ : BufTy).Contents (Elt Ideal)) (b : Fin 1024) (c n : Fin 64) (j : Fin 4) :
    val_main_v47 (F := Ideal) x0 x1 x2 x3 x4 x7 (ix4 b c n j)
      = ∑ k : Fin 4, arc (row x0 b) (mat x1) (vec x2) (cub x7) c n k * dRe (row x0 b) (mat x3) (vec x4) c k j := by
  rw [val_main_v47_apply]
  refine Finset.sum_congr rfl fun k _ => ?_
  have el : lidx_main_v47 (ix4 b c n j) k = ix4 b c n k := funext fun a => Fin.ext (by match a with | ⟨0, _⟩ => rfl | ⟨1, _⟩ => rfl | ⟨2, _⟩ => rfl | ⟨3, _⟩ => rfl)
  have er : ridx_main_v47 (ix4 b c n j) k = ix4 b c k j := funext fun a => Fin.ext (by match a with | ⟨0, _⟩ => rfl | ⟨1, _⟩ => rfl | ⟨2, _⟩ => rfl | ⟨3, _⟩ => rfl)
  rw [el, er, v41_at, v30_at]

/-- (cos θ · C c) · D_im at (n, j). -/
theorem v48_at (x0 : (⟨S1024x512, .f32⟩ : BufTy).Contents (Elt Ideal)) (x1 : (⟨S64x512, .f32⟩ : BufTy).Contents (Elt Ideal))
    (x2 : (⟨S64, .f32⟩ : BufTy).Contents (Elt Ideal)) (x5 : (⟨S1024x512, .f32⟩ : BufTy).Contents (Elt Ideal)) (x6 : (⟨S1024, .f32⟩ : BufTy).Contents (Elt Ideal)) (x7 : (⟨S64x64x4, .f32⟩ : BufTy).Contents (Elt Ideal)) (b : Fin 1024) (c n : Fin 64) (j : Fin 4) :
    val_main_v48 (F := Ideal) x0 x1 x2 x5 x6 x7 (ix4 b c n j)
      = ∑ k : Fin 4, arc (row x0 b) (mat x1) (vec x2) (cub x7) c n k * dIm (row x0 b) (mat x5) (vec x6) c k j := by
  rw [val_main_v48_apply]
  refine Finset.sum_congr rfl fun k _ => ?_
  have el : lidx_main_v48 (ix4 b c n j) k = ix4 b c n k := funext fun a => Fin.ext (by match a with | ⟨0, _⟩ => rfl | ⟨1, _⟩ => rfl | ⟨2, _⟩ => rfl | ⟨3, _⟩ => rfl)
  have er : ridx_main_v48 (ix4 b c n j) k = ix4 b c k j := funext fun a => Fin.ext (by match a with | ⟨0, _⟩ => rfl | ⟨1, _⟩ => rfl | ⟨2, _⟩ => rfl | ⟨3, _⟩ => rfl)
  rw [el, er, v41_at, v36_at]

/-- (sin θ · C c) · D_re at (n, j). -/
theorem v49_at (x0 : (⟨S1024x512, .f32⟩ : BufTy).Contents (Elt Ideal)) (x1 : (⟨S64x512, .f32⟩ : BufTy).Contents (Elt Ideal))
    (x2 : (⟨S64, .f32⟩ : BufTy).Contents (Elt Ideal)) (x3 : (⟨S1024x512, .f32⟩ : BufTy).Contents (Elt Ideal)) (x4 : (⟨S1024, .f32⟩ : BufTy).Contents (Elt Ideal)) (x7 : (⟨S64x64x4, .f32⟩ : BufTy).Contents (Elt Ideal)) (b : Fin 1024) (c n : Fin 64) (j : Fin 4) :
    val_main_v49 (F := Ideal) x0 x1 x2 x3 x4 x7 (ix4 b c n j)
      = ∑ k : Fin 4, aic (row x0 b) (mat x1) (vec x2) (cub x7) c n k * dRe (row x0 b) (mat x3) (vec x4) c k j := by
  rw [val_main_v49_apply]
  refine Finset.sum_congr rfl fun k _ => ?_
  have el : lidx_main_v49 (ix4 b c n j) k = ix4 b c n k := funext fun a => Fin.ext (by match a with | ⟨0, _⟩ => rfl | ⟨1, _⟩ => rfl | ⟨2, _⟩ => rfl | ⟨3, _⟩ => rfl)
  have er : ridx_main_v49 (ix4 b c n j) k = ix4 b c k j := funext fun a => Fin.ext (by match a with | ⟨0, _⟩ => rfl | ⟨1, _⟩ => rfl | ⟨2, _⟩ => rfl | ⟨3, _⟩ => rfl)
  rw [el, er, v46_at, v30_at]

/-- (sin θ · C c) · D_im at (n, j). -/
theorem v50_at (x0 : (⟨S1024x512, .f32⟩ : BufTy).Contents (Elt Ideal)) (x1 : (⟨S64x512, .f32⟩ : BufTy).Contents (Elt Ideal))
    (x2 : (⟨S64, .f32⟩ : BufTy).Contents (Elt Ideal)) (x5 : (⟨S1024x512, .f32⟩ : BufTy).Contents (Elt Ideal)) (x6 : (⟨S1024, .f32⟩ : BufTy).Contents (Elt Ideal)) (x7 : (⟨S64x64x4, .f32⟩ : BufTy).Contents (Elt Ideal)) (b : Fin 1024) (c n : Fin 64) (j : Fin 4) :
    val_main_v50 (F := Ideal) x0 x1 x2 x5 x6 x7 (ix4 b c n j)
      = ∑ k : Fin 4, aic (row x0 b) (mat x1) (vec x2) (cub x7) c n k * dIm (row x0 b) (mat x5) (vec x6) c k j := by
  rw [val_main_v50_apply]
  refine Finset.sum_congr rfl fun k _ => ?_
  have el : lidx_main_v50 (ix4 b c n j) k = ix4 b c n k := funext fun a => Fin.ext (by match a with | ⟨0, _⟩ => rfl | ⟨1, _⟩ => rfl | ⟨2, _⟩ => rfl | ⟨3, _⟩ => rfl)
  have er : ridx_main_v50 (ix4 b c n j) k = ix4 b c k j := funext fun a => Fin.ext (by match a with | ⟨0, _⟩ => rfl | ⟨1, _⟩ => rfl | ⟨2, _⟩ => rfl | ⟨3, _⟩ => rfl)
  rw [el, er, v46_at, v36_at]

/-- The real part of the product at (n, j). -/
theorem v51_at (x0 : (⟨S1024x512, .f32⟩ : BufTy).Contents (Elt Ideal)) (x1 : (⟨S64x512, .f32⟩ : BufTy).Contents (Elt Ideal))
    (x2 : (⟨S64, .f32⟩ : BufTy).Contents (Elt Ideal))
    (x3 : (⟨S1024x512, .f32⟩ : BufTy).Contents (Elt Ideal)) (x4 : (⟨S1024, .f32⟩ : BufTy).Contents (Elt Ideal))
    (x5 : (⟨S1024x512, .f32⟩ : BufTy).Contents (Elt Ideal)) (x6 : (⟨S1024, .f32⟩ : BufTy).Contents (Elt Ideal))
    (x7 : (⟨S64x64x4, .f32⟩ : BufTy).Contents (Elt Ideal)) (b : Fin 1024) (c n : Fin 64) (j : Fin 4) :
    val_main_v51 (F := Ideal) x0 x1 x2 x3 x4 x5 x6 x7 (ix4 b c n j) = vRe (row x0 b) (mat x1) (vec x2) (mat x3) (vec x4) (mat x5) (vec x6) (cub x7) c n j := by
  rw [val_main_v51_apply, v47_at, v50_at]; rfl

/-- The imaginary part of the product at (n, j). -/
theorem v52_at (x0 : (⟨S1024x512, .f32⟩ : BufTy).Contents (Elt Ideal)) (x1 : (⟨S64x512, .f32⟩ : BufTy).Contents (Elt Ideal))
    (x2 : (⟨S64, .f32⟩ : BufTy).Contents (Elt Ideal))
    (x3 : (⟨S1024x512, .f32⟩ : BufTy).Contents (Elt Ideal)) (x4 : (⟨S1024, .f32⟩ : BufTy).Contents (Elt Ideal))
    (x5 : (⟨S1024x512, .f32⟩ : BufTy).Contents (Elt Ideal)) (x6 : (⟨S1024, .f32⟩ : BufTy).Contents (Elt Ideal))
    (x7 : (⟨S64x64x4, .f32⟩ : BufTy).Contents (Elt Ideal)) (b : Fin 1024) (c n : Fin 64) (j : Fin 4) :
    val_main_v52 (F := Ideal) x0 x1 x2 x3 x4 x5 x6 x7 (ix4 b c n j) = vIm (row x0 b) (mat x1) (vec x2) (mat x3) (vec x4) (mat x5) (vec x6) (cub x7) c n j := by
  rw [val_main_v52_apply, v48_at, v49_at]; rfl

/-- The squared modulus of the product's entry (n, j). -/
theorem v55_at (x0 : (⟨S1024x512, .f32⟩ : BufTy).Contents (Elt Ideal)) (x1 : (⟨S64x512, .f32⟩ : BufTy).Contents (Elt Ideal))
    (x2 : (⟨S64, .f32⟩ : BufTy).Contents (Elt Ideal))
    (x3 : (⟨S1024x512, .f32⟩ : BufTy).Contents (Elt Ideal)) (x4 : (⟨S1024, .f32⟩ : BufTy).Contents (Elt Ideal))
    (x5 : (⟨S1024x512, .f32⟩ : BufTy).Contents (Elt Ideal)) (x6 : (⟨S1024, .f32⟩ : BufTy).Contents (Elt Ideal))
    (x7 : (⟨S64x64x4, .f32⟩ : BufTy).Contents (Elt Ideal)) (b : Fin 1024) (c n : Fin 64) (j : Fin 4) :
    val_main_v55 (F := Ideal) x0 x1 x2 x3 x4 x5 x6 x7 (ix4 b c n j) = vSq (row x0 b) (mat x1) (vec x2) (mat x3) (vec x4) (mat x5) (vec x6) (cub x7) c n j := by
  rw [val_main_v55_apply, val_main_v53_apply, val_main_v54_apply, v51_at, v52_at]; rfl

/-- The squared Frobenius norm: the sum over the last two axes, started from the zero word, is 0 plus the double sum
    over (n, j) of the squared moduli. -/
theorem v56_at (x0 : (⟨S1024x512, .f32⟩ : BufTy).Contents (Elt Ideal)) (x1 : (⟨S64x512, .f32⟩ : BufTy).Contents (Elt Ideal))
    (x2 : (⟨S64, .f32⟩ : BufTy).Contents (Elt Ideal))
    (x3 : (⟨S1024x512, .f32⟩ : BufTy).Contents (Elt Ideal)) (x4 : (⟨S1024, .f32⟩ : BufTy).Contents (Elt Ideal))
    (x5 : (⟨S1024x512, .f32⟩ : BufTy).Contents (Elt Ideal)) (x6 : (⟨S1024, .f32⟩ : BufTy).Contents (Elt Ideal))
    (x7 : (⟨S64x64x4, .f32⟩ : BufTy).Contents (Elt Ideal)) (b : Fin 1024) (c : Fin 64) :
    val_main_v56 (F := Ideal) x0 x1 x2 x3 x4 x5 x6 x7 (ix2 b c)
      = 0 + ∑ n : Fin 64, ∑ j : Fin 4, vSq (row x0 b) (mat x1) (vec x2) (mat x3) (vec x4) (mat x5) (vec x6) (cub x7) c n j := by
  unfold val_main_v56
  generalize hx : val_main_v55 (F := Ideal) x0 x1 x2 x3 x4 x5 x6 x7 = y
  refine (Cert.LibSumLastTwo.host_reduceAdd_last2 (B := 1024) (C := 64) (N := 64) (J := 4) (φ := .f32) y _ _ _ b c).trans ?_
  subst hx
  rw [val_main_cst_apply]
  show Ideal.ofBits .f32 0x00000000#32 + _ = _
  rw [Ideal.ofBits_zero_f32]
  exact congrArg (fun s : EReal => 0 + s) (Finset.sum_congr rfl fun n _ => Finset.sum_congr rfl fun j _ => v55_at x0 x1 x2 x3 x4 x5 x6 x7 b c n j)

/-- The Frobenius norm of the product for selection c. -/
theorem v57_at (x0 : (⟨S1024x512, .f32⟩ : BufTy).Contents (Elt Ideal)) (x1 : (⟨S64x512, .f32⟩ : BufTy).Contents (Elt Ideal))
    (x2 : (⟨S64, .f32⟩ : BufTy).Contents (Elt Ideal))
    (x3 : (⟨S1024x512, .f32⟩ : BufTy).Contents (Elt Ideal)) (x4 : (⟨S1024, .f32⟩ : BufTy).Contents (Elt Ideal))
    (x5 : (⟨S1024x512, .f32⟩ : BufTy).Contents (Elt Ideal)) (x6 : (⟨S1024, .f32⟩ : BufTy).Contents (Elt Ideal))
    (x7 : (⟨S64x64x4, .f32⟩ : BufTy).Contents (Elt Ideal)) (b : Fin 1024) (c : Fin 64) :
    val_main_v57 (F := Ideal) x0 x1 x2 x3 x4 x5 x6 x7 (ix2 b c) = vF (row x0 b) (mat x1) (vec x2) (mat x3) (vec x4) (mat x5) (vec x6) (cub x7) 0 c := by
  rw [val_main_v57_apply, v56_at]; rfl

/-- The norm, repeated over the 4 × 4 entries of precoder c. -/
theorem v61_at (x0 : (⟨S1024x512, .f32⟩ : BufTy).Contents (Elt Ideal)) (x1 : (⟨S64x512, .f32⟩ : BufTy).Contents (Elt Ideal))
    (x2 : (⟨S64, .f32⟩ : BufTy).Contents (Elt Ideal))
    (x3 : (⟨S1024x512, .f32⟩ : BufTy).Contents (Elt Ideal)) (x4 : (⟨S1024, .f32⟩ : BufTy).Contents (Elt Ideal))
    (x5 : (⟨S1024x512, .f32⟩ : BufTy).Contents (Elt Ideal)) (x6 : (⟨S1024, .f32⟩ : BufTy).Contents (Elt Ideal))
    (x7 : (⟨S64x64x4, .f32⟩ : BufTy).Contents (Elt Ideal)) (b : Fin 1024) (c : Fin 64) (k j : Fin 4) :
    val_main_v61 (F := Ideal) x0 x1 x2 x3 x4 x5 x6 x7 (ix4 b c k j) = vF (row x0 b) (mat x1) (vec x2) (mat x3) (vec x4) (mat x5) (vec x6) (cub x7) 0 c := by
  rw [val_main_v61_apply, val_main_v58_apply]
  have e : idx_main_v58 (idx_main_v61 (ix4 b c k j)) = ix2 b c := funext fun a => Fin.ext (by match a with | ⟨0, _⟩ => rfl | ⟨1, _⟩ => rfl)
  rw [e, v57_at]

/-- The norm, repeated over the 4 × 4 entries of precoder c. -/
theorem v65_at (x0 : (⟨S1024x512, .f32⟩ : BufTy).Contents (Elt Ideal)) (x1 : (⟨S64x512, .f32⟩ : BufTy).Contents (Elt Ideal))
    (x2 : (⟨S64, .f32⟩ : BufTy).Contents (Elt Ideal))
    (x3 : (⟨S1024x512, .f32⟩ : BufTy).Contents (Elt Ideal)) (x4 : (⟨S1024, .f32⟩ : BufTy).Contents (Elt Ideal))
    (x5 : (⟨S1024x512, .f32⟩ : BufTy).Contents (Elt Ideal)) (x6 : (⟨S1024, .f32⟩ : BufTy).Contents (Elt Ideal))
    (x7 : (⟨S64x64x4, .f32⟩ : BufTy).Contents (Elt Ideal)) (b : Fin 1024) (c : Fin 64) (k j : Fin 4) :
    val_main_v65 (F := Ideal) x0 x1 x2 x3 x4 x5 x6 x7 (ix4 b c k j) = vF (row x0 b) (mat x1) (vec x2) (mat x3) (vec x4) (mat x5) (vec x6) (cub x7) 0 c := by
  rw [val_main_v65_apply, val_main_v58_apply]
  have e : idx_main_v58 (idx_main_v65 (ix4 b c k j)) = ix2 b c := funext fun a => Fin.ext (by match a with | ⟨0, _⟩ => rfl | ⟨1, _⟩ => rfl)
  rw [e, v57_at]

/-- The constant 2, kept as its f32 pattern. -/
theorem v59_at (b : Fin 1024) (c : Fin 64) (k j : Fin 4) :
    val_main_v59 (F := Ideal) (ix4 b c k j) = two := by
  rw [val_main_v59_apply, val_main_cst_0_apply]; rfl

/-- The constant 2, kept as its f32 pattern. -/
theorem v63_at (b : Fin 1024) (c : Fin 64) (k j : Fin 4) :
    val_main_v63 (F := Ideal) (ix4 b c k j) = two := by
  rw [val_main_v63_apply, val_main_cst_1_apply]; rfl

/-- The reference's third result is the rescaled real precoder. -/
theorem ref_v62 (x0 : (⟨S1024x512, .f32⟩ : BufTy).Contents (Elt Ideal)) (x1 : (⟨S64x512, .f32⟩ : BufTy).Contents (Elt Ideal))
    (x2 : (⟨S64, .f32⟩ : BufTy).Contents (Elt Ideal))
    (x3 : (⟨S1024x512, .f32⟩ : BufTy).Contents (Elt Ideal)) (x4 : (⟨S1024, .f32⟩ : BufTy).Contents (Elt Ideal))
    (x5 : (⟨S1024x512, .f32⟩ : BufTy).Contents (Elt Ideal)) (x6 : (⟨S1024, .f32⟩ : BufTy).Contents (Elt Ideal))
    (x7 : (⟨S64x64x4, .f32⟩ : BufTy).Contents (Elt Ideal)) :
    val_main_v62 (F := Ideal) x0 x1 x2 x3 x4 x5 x6 x7 = G10 x0 x1 x2 x3 x4 x5 x6 x7 := by
  funext i
  obtain ⟨b, c, k, j, rfl⟩ : ∃ (b : Fin 1024) (c : Fin 64) (k j : Fin 4), i = ix4 b c k j := ⟨i 0, i 1, i 2, i 3, eq_ix4 i⟩
  rw [val_main_v62_apply, val_main_v60_apply, v59_at, v30_at, v61_at]; rfl

/-- The reference's fourth result is the rescaled imaginary precoder. -/
theorem ref_v66 (x0 : (⟨S1024x512, .f32⟩ : BufTy).Contents (Elt Ideal)) (x1 : (⟨S64x512, .f32⟩ : BufTy).Contents (Elt Ideal))
    (x2 : (⟨S64, .f32⟩ : BufTy).Contents (Elt Ideal))
    (x3 : (⟨S1024x512, .f32⟩ : BufTy).Contents (Elt Ideal)) (x4 : (⟨S1024, .f32⟩ : BufTy).Contents (Elt Ideal))
    (x5 : (⟨S1024x512, .f32⟩ : BufTy).Contents (Elt Ideal)) (x6 : (⟨S1024, .f32⟩ : BufTy).Contents (Elt Ideal))
    (x7 : (⟨S64x64x4, .f32⟩ : BufTy).Contents (Elt Ideal)) :
    val_main_v66 (F := Ideal) x0 x1 x2 x3 x4 x5 x6 x7 = G11 x0 x1 x2 x3 x4 x5 x6 x7 := by
  funext i
  obtain ⟨b, c, k, j, rfl⟩ : ∃ (b : Fin 1024) (c : Fin 64) (k j : Fin 4), i = ix4 b c k j := ⟨i 0, i 1, i 2, i 3, eq_ix4 i⟩
  rw [val_main_v66_apply, val_main_v64_apply, v63_at, v36_at, v65_at]; rfl

end Cert.RefIsSpec

end
-- ==== Proof.RealArgs.lean ====
/-
  Finiteness of the arguments, decoded. The precondition is the conjunction, over the eight float argument
  arrays, of "every entry x has |x| < +∞", each conjunct an and-reduction over all axes of the elementwise
  comparison. At the ideal instance a float is an extended real, |x| is max x (-x), and the word 0x7F800000
  denotes ⊤; so the precondition says that no entry is ⊤ or ⊥, i.e. that every entry is a real number.
-/
import proofs.«164868_j87385404605127_1_alg».proof.Defs
import Idealize.ShloMosaic.Lib.ReduceAll
import Idealize.ShloMosaic.Lib.ValueIdx
import Idealize.ShloMosaic.PureOps.Ideal.Laws

noncomputable section

namespace Cert.RealArgs

open Idealize.ShloMosaic Idealize.SL.Sem
open Cert.Pre_finite_inputs

/-- The scalar shape has exactly one index. -/
instance : Subsingleton S_.Idx := ⟨fun a b => funext fun d => d.elim0⟩

/-- An extended real whose absolute value `max x (-x)` lies strictly below `+∞` (the value the word
    `0x7F800000` denotes) is a real number: neither `⊤` nor `⊥` passes the comparison. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  induction x using EReal.rec with
  | bot => simp [Ideal.cmpf_def, Ideal.absf_def, Ideal.cmp, Ideal.ofBits, Ideal.ieee] at h
  | coe r => exact ⟨r, rfl⟩
  | top => simp [Ideal.cmpf_def, Ideal.absf_def, Ideal.cmp, Ideal.ofBits, Ideal.ieee] at h

/-- If the and-reduction over all axes of the elementwise test `|a i| < +∞` is 1, every entry of `a` is a real number. -/
theorem real_of_all {s : Shape} {axes : List (Fin s.rank)} (hb : S_.BroadcastsInDim s (![] : Fin 0 → Fin s.rank))
    (hr : s.ReducesTo axes S_) (hu : 0 < S_.numel) (a : FVec Ideal s .f32)
    (h : Host.reduce IntOp.andi (cmpf .olt (Host.absf a) (broadcastInDim s ![] hb (constant S_ .f32 0x7F800000#32)))
          (constantI S_ 1 1#1) hr hu ValueIdx.ix0 = 1#1) :
    ∀ i, ∃ r : ℝ, a i = (r : EReal) := fun i =>
  real_of_abs_lt_inf (a i) (Host.reduce_andi_all _ _ hr hu _ h i)

/-- If the printed precondition `finite_inputs` evaluates to the all-ones scalar on eight argument arrays
    (the conjunction, over the arrays, of "every entry has `|x| < +∞`"), then every entry of every one of
    the eight arrays is a real number. -/
theorem real_of_fn [Cert.Pre_finite_inputs.Facts]
    (a0 : FVec Ideal S1024x512 .f32) (a1 : FVec Ideal S64x512 .f32) (a2 : FVec Ideal S64 .f32)
    (a3 : FVec Ideal S1024x512 .f32) (a4 : FVec Ideal S1024 .f32) (a5 : FVec Ideal S1024x512 .f32)
    (a6 : FVec Ideal S1024 .f32) (a7 : FVec Ideal S64x64x4 .f32)
    (h : Cert.Pre_finite_inputs.fn (F := Ideal) a0 a1 a2 a3 a4 a5 a6 a7 = (fun _ => 1#1)) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) := by
  have h0 := congrFun h ValueIdx.ix0
  dsimp only [Cert.Pre_finite_inputs.fn, Cert.Pre_finite_inputs.fn_part1, Cert.Pre_finite_inputs.fn_part2, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6, real_of_all _ _ _ a7 e7⟩

/-- Under the idealized kernel's precondition, on every device, every entry of each of the eight argument
    arrays held in memory is a real number. -/
theorem real_args [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧
    (∀ i, ∃ r : ℝ, m ((c.tc : Thread Cert.KernelIdeal.nD Cert.KernelIdeal.τ).loc Cert.KernelIdeal.main_arg1) i = (r : EReal)) ∧
    (∀ i, ∃ r : ℝ, m ((c.tc : Thread Cert.KernelIdeal.nD Cert.KernelIdeal.τ).loc Cert.KernelIdeal.main_arg2) i = (r : EReal)) ∧
    (∀ i, ∃ r : ℝ, m ((c.tc : Thread Cert.KernelIdeal.nD Cert.KernelIdeal.τ).loc Cert.KernelIdeal.main_arg3) i = (r : EReal)) ∧
    (∀ i, ∃ r : ℝ, m ((c.tc : Thread Cert.KernelIdeal.nD Cert.KernelIdeal.τ).loc Cert.KernelIdeal.main_arg4) i = (r : EReal)) ∧
    (∀ i, ∃ r : ℝ, m ((c.tc : Thread Cert.KernelIdeal.nD Cert.KernelIdeal.τ).loc Cert.KernelIdeal.main_arg5) i = (r : EReal)) ∧
    (∀ i, ∃ r : ℝ, m ((c.tc : Thread Cert.KernelIdeal.nD Cert.KernelIdeal.τ).loc Cert.KernelIdeal.main_arg6) i = (r : EReal)) ∧
    (∀ i, ∃ r : ℝ, m ((c.tc : Thread Cert.KernelIdeal.nD Cert.KernelIdeal.τ).loc Cert.KernelIdeal.main_arg7) i = (r : EReal)) :=
  real_of_fn _ _ _ _ _ _ _ _ (h c)

end Cert.RealArgs

end
-- ==== Proof.lean ====
/-
  A beamforming layer: from a batch of feature rows x, three dense layers give 64 phases θ and 64 complex 4 × 4
  precoders D per row; the results are the diagonal embeddings of cos θ and sin θ, and the precoders rescaled by
  2 / ‖(diag(e^{iθ}) C_c) D_c‖_F for each of 64 selection matrices C_c.

  The kernel handles 128 rows per grid point and forms the complex product's real and imaginary parts by
  accumulating the four contraction terms one after the other (subtracting the cross terms as they come); the
  reference forms four batched real matrix products and combines them afterwards. On the extended reals the two
  arrangements agree because every subtracted term is a real number, which the precondition (all inputs finite)
  gives; everything else is the same function on both sides, entry by entry: `Cert.Beam` states it once, the kernel's
  blocks tile its arrays, and the reference's stages unfold to it.
-/
import proofs.«164868_j87385404605127_1_alg».proof.Defs
import proofs.«164868_j87385404605127_1_alg».proof.Proof.Gen.Kernel
import proofs.«164868_j87385404605127_1_alg».proof.Proof.Gen.Kernel.Skeleton
import proofs.«164868_j87385404605127_1_alg».proof.Proof.Gen.Kernel.Launch
import proofs.«164868_j87385404605127_1_alg».proof.Proof.Gen.Kernel.Points
import proofs.«164868_j87385404605127_1_alg».proof.Proof.Gen.Kernel.Frame
import proofs.«164868_j87385404605127_1_alg».proof.Proof.Gen.KernelIdeal
import proofs.«164868_j87385404605127_1_alg».proof.Proof.Gen.KernelIdeal.Skeleton
import proofs.«164868_j87385404605127_1_alg».proof.Proof.Gen.KernelIdeal.Launch
import proofs.«164868_j87385404605127_1_alg».proof.Proof.Gen.KernelIdeal.Points
import proofs.«164868_j87385404605127_1_alg».proof.Proof.Gen.KernelIdeal.Frame
import proofs.«164868_j87385404605127_1_alg».proof.Proof.Gen.ReferenceIdeal
import proofs.«164868_j87385404605127_1_alg».proof.Proof.Gen.KernelIdeal.Value
import proofs.«164868_j87385404605127_1_alg».proof.Proof.Gen.ReferenceIdeal.Run
import proofs.«164868_j87385404605127_1_alg».proof.Proof.Gen.ReferenceIdeal.Read
import proofs.«164868_j87385404605127_1_alg».proof.Proof.Gen.Pre_finite_inputs
import proofs.«164868_j87385404605127_1_alg».proof.Proof.KArray
import proofs.«164868_j87385404605127_1_alg».proof.Proof.RefIsSpec
import proofs.«164868_j87385404605127_1_alg».proof.Proof.RealArgs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- Both programs end with the specification's four arrays of the (agreeing, finite) arguments, and the selection set
    itself as the fifth result. -/
theorem algebraic : Cert.algebraic_KernelIdeal_ReferenceIdeal := by
  intro m ρ m' ρ' hpre hagree
  have hre : ∀ c : Dev Cert.KernelIdeal.nD,
      (∀ i, Cert.Beam.IsR ((m ((c.tc : Thread Cert.KernelIdeal.nD Cert.KernelIdeal.τ).loc Cert.KernelIdeal.main_arg0)) i)) ∧ (∀ i, Cert.Beam.IsR ((m ((c.tc : Thread Cert.KernelIdeal.nD Cert.KernelIdeal.τ).loc Cert.KernelIdeal.main_arg1)) i)) ∧ (∀ i, Cert.Beam.IsR ((m ((c.tc : Thread Cert.KernelIdeal.nD Cert.KernelIdeal.τ).loc Cert.KernelIdeal.main_arg2)) i))
      ∧ (∀ i, Cert.Beam.IsR ((m ((c.tc : Thread Cert.KernelIdeal.nD Cert.KernelIdeal.τ).loc Cert.KernelIdeal.main_arg5)) i)) ∧ (∀ i, Cert.Beam.IsR ((m ((c.tc : Thread Cert.KernelIdeal.nD Cert.KernelIdeal.τ).loc Cert.KernelIdeal.main_arg6)) i)) ∧ (∀ i, Cert.Beam.IsR ((m ((c.tc : Thread Cert.KernelIdeal.nD Cert.KernelIdeal.τ).loc Cert.KernelIdeal.main_arg7)) i)) := fun c => by
    obtain ⟨r0, r1, r2, _, _, r5, r6, r7⟩ := Cert.RealArgs.real_args m hpre c
    exact ⟨r0, r1, r2, r5, r6, r7⟩
  refine ⟨fun c => Cert.Beam.G8 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Beam.G9 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Beam.G10 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Beam.G11 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => (m ((c.tc : Thread Cert.KernelIdeal.nD Cert.KernelIdeal.τ).loc Cert.KernelIdeal.main_arg7)), ?_, ?_⟩
  · refine (θ_run Cert.KernelIdeal.defs _ _).mono (fun r h c => ?_) (Cert.KArray.run m ρ hre)
    obtain ⟨h8, h9, h10, h11, k0, k1, k2, k3, k4, k5, k6, k7⟩ := h c
    exact ⟨h8, h9, h10, h11, k7, k0, k1, k2, k3, k4, k5, k6, k7⟩
  · refine (θ_run Cert.ReferenceIdeal.defs _ _).mono (fun r h c => ?_) (Cert.ReferenceIdeal.Value.run (F := Ideal) m' ρ')
    obtain ⟨a0, a1, a2, a3, a4, a5, a6, a7⟩ := hagree c
    obtain ⟨h18, h24, h62, h66, k7', k0, k1, k2, k3, k4, k5, k6, k7⟩ := h c
    refine ⟨?_, ?_, ?_, ?_, k7'.trans a7, k0, k1, k2, k3, k4, k5, k6, k7⟩
    · rw [h18, Cert.ReferenceIdeal.Read.val_main_v18_eq, Cert.RefIsSpec.ref_v18, a0, a1, a2]
    · rw [h24, Cert.ReferenceIdeal.Read.val_main_v24_eq, Cert.RefIsSpec.ref_v24, a0, a1, a2]
    · rw [h62, Cert.ReferenceIdeal.Read.val_main_v62_eq, Cert.RefIsSpec.ref_v62, a0, a1, a2, a3, a4, a5, a6, a7]
    · rw [h66, Cert.ReferenceIdeal.Read.val_main_v66_eq, Cert.RefIsSpec.ref_v66, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
